-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v29_0)) (v1 : (c : Dev Cert.KernelIdeal.nD) → Buf (Elt Ideal) ((c.tc : Thread Cert.KernelIdeal.nD Cert.KernelIdeal.τ).loc Cert.KernelIdeal.main_v29_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29_0) = v0 c
          ∧ r.2.mem ((c.tc : Thread Cert.KernelIdeal.nD Cert.KernelIdeal.τ).loc Cert.KernelIdeal.main_v29_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S1024 : Shape := ⟨1, ![1024]⟩
abbrev S150000x512 : Shape := ⟨2, ![150000, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S150000x512 : S_.BroadcastsInDim S150000x512 (![] : Fin 0 → Fin S150000x512.rank)
  reducesTo_S150000x512_S_d0_1 : S150000x512.ReducesTo [0, 1] S_

variable [Facts]

def fn {F : FTy → Type} [FloatOps F] (main_arg0 : FVec F S1024x512 .f32) (main_arg1 : IVec S1024 32) (main_arg2 : FVec F S150000x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S150000x512 .f32 := Host.absf main_arg2
  let main_cst_0 : FVec F S_ .f32 := constant S_ .f32 0x7F800000#32
  let main_v5 : FVec F S150000x512 .f32 := broadcastInDim S150000x512 ![] bcast_S_S150000x512 main_cst_0
  let main_v6 : IVec S150000x512 1 := cmpf .olt main_v4 main_v5
  let main_c_1 : IVec S_ 1 := constantI S_ 1 1#1
  let main_v7 : IVec S_ 1 := (fun x v => Host.reduce IntOp.andi x v reducesTo_S150000x512_S_d0_1 h_S_) main_v6 main_c_1
  let main_v8 : IVec S_ 1 := andi main_v3 main_v7
  main_v8
-- ==== Kernel.lean ====
abbrev S1024x512 : Shape := ⟨2, ![1024, 512]⟩
abbrev S1024 : Shape := ⟨1, ![1024]⟩
abbrev S150000x512 : Shape := ⟨2, ![150000, 512]⟩
abbrev S_ : Shape := ⟨0, ![]⟩
abbrev S1024x1 : Shape := ⟨2, ![1024, 1]⟩
abbrev S50000x3x512 : Shape := ⟨3, ![50000, 3, 512]⟩
abbrev S50000x3 : Shape := ⟨2, ![50000, 3]⟩
abbrev S50000x3x1 : Shape := ⟨3, ![50000, 3, 1]⟩
abbrev S50000x1x512 : Shape := ⟨3, ![50000, 1, 512]⟩
abbrev S50000x512 : Shape := ⟨2, ![50000, 512]⟩
abbrev S50176x512 : Shape := ⟨2, ![50176, 512]⟩
abbrev S1024x50000 : Shape := ⟨2, ![1024, 50000]⟩
abbrev S512x512 : Shape := ⟨2, ![512, 512]⟩

abbrev nBuf : Space → Nat
  | .hbm => 44
  | .vmem => 12
  | .smem => 0
  | _ => 0

abbrev bufTy : (tb : Table) → Fin (tcTables nBuf tb) → BufTy
  | .hbm, ⟨0, _⟩ => ⟨S1024x512, .f32⟩
  | .hbm, ⟨1, _⟩ => ⟨S1024, .i32⟩
  | .hbm, ⟨2, _⟩ => ⟨S150000x512, .f32⟩
  | .hbm, ⟨3, _⟩ => ⟨S1024x512, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S_, .f32⟩
  | .hbm, ⟨8, _⟩ => ⟨S1024x1, .f32⟩
  | .hbm, ⟨9, _⟩ => ⟨S1024x1, .f32⟩
  | .hbm, ⟨10, _⟩ => ⟨S1024x1, .f32⟩
  | .hbm, ⟨11, _⟩ => ⟨S1024x512, .f32⟩
  | .hbm, ⟨12, _⟩ => ⟨S1024x512, .f32⟩
  | .hbm, ⟨13, _⟩ => ⟨S1024x512, .bf16⟩
  | .hbm, ⟨14, _⟩ => ⟨S50000x3x512, .f32⟩
  | .hbm, ⟨15, _⟩ => ⟨S50000x3x512, .f32⟩
  | .hbm, ⟨16, _⟩ => ⟨S_, .f32⟩
  | .hbm, ⟨17, _⟩ => ⟨S50000x3, .f32⟩
  | .hbm, ⟨18, _⟩ => ⟨S50000x3x1, .f32⟩
  | .hbm, ⟨19, _⟩ => ⟨S_, .f32⟩
  | .hbm, ⟨20, _⟩ => ⟨S50000x3x1, .f32⟩
  | .hbm, ⟨21, _⟩ => ⟨S50000x3x1, .f32⟩
  | .hbm, ⟨22, _⟩ => ⟨S50000x3x1, .f32⟩
  | .hbm, ⟨23, _⟩ => ⟨S50000x3x512, .f32⟩
  | .hbm, ⟨24, _⟩ => ⟨S50000x3x512, .f32⟩
  | .hbm, ⟨25, _⟩ => ⟨S50000x3x512, .bf16⟩
  | .hbm, ⟨26, _⟩ => ⟨S50000x1x512, .bf16⟩
  | .hbm, ⟨27, _⟩ => ⟨S50000x512, .bf16⟩
  | .hbm, ⟨28, _⟩ => ⟨S50000x1x512, .bf16⟩
  | .hbm, ⟨29, _⟩ => ⟨S50000x512, .bf16⟩
  | .hbm, ⟨30, _⟩ => ⟨S50000x1x512, .bf16⟩
  | .hbm, ⟨31, _⟩ => ⟨S50000x512, .bf16⟩
  | .hbm, ⟨32, _⟩ => ⟨S_, .i32⟩
  | .hbm, ⟨33, _⟩ => ⟨S_, .bf16⟩
  | .hbm, ⟨34, _⟩ => ⟨S50176x512, .bf16⟩
  | .hbm, ⟨35, _⟩ => ⟨S_, .i32⟩
  | .hbm, ⟨36, _⟩ => ⟨S_, .bf16⟩
  | .hbm, ⟨37, _⟩ => ⟨S50176x512, .bf16⟩
  | .hbm, ⟨38, _⟩ => ⟨S_, .i32⟩
  | .hbm, ⟨39, _⟩ => ⟨S_, .bf16⟩
  | .hbm, ⟨40, _⟩ => ⟨S50176x512, .bf16⟩
  | .hbm, ⟨41, _⟩ => ⟨S1024x1, .i32⟩
  | .hbm, ⟨42, _⟩ => ⟨S1024x50000, .f32⟩
  | .hbm, ⟨43, _⟩ => ⟨S1024x50000, .f32⟩
  | .local _ .vmem, ⟨0, _⟩ => ⟨S1024x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S1024x1, .i32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c : Ref sig .tc := ⟨.hbm, 32, rfl⟩
abbrev main_call0_v0 : Ref sig .tc := ⟨.hbm, 33, rfl⟩
abbrev main_v25 : Ref sig .tc := ⟨.hbm, 34, rfl⟩
abbrev main_c_3 : Ref sig .tc := ⟨.hbm, 35, rfl⟩
abbrev main_call1_v0 : Ref sig .tc := ⟨.hbm, 36, rfl⟩
abbrev main_v26 : Ref sig .tc := ⟨.hbm, 37, rfl⟩
abbrev main_c_4 : Ref sig .tc := ⟨.hbm, 38, rfl⟩
abbrev main_call2_v0 : Ref sig .tc := ⟨.hbm, 39, rfl⟩
abbrev main_v27 : Ref sig .tc := ⟨.hbm, 40, rfl⟩
abbrev main_v28 : Ref sig .tc := ⟨.hbm, 41, rfl⟩
abbrev main_v29_0 : Ref sig .tc := ⟨.hbm, 42, rfl⟩
abbrev main_v29_1 : Ref sig .tc := ⟨.hbm, 43, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![98], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  reducesTo_S1024x512_S1024_d1 : S1024x512.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x512_0_1 : S1024x1.BroadcastsInDim S1024x512 (![0, 1] : Fin 2 → Fin S1024x512.rank)
  bitsLt_bf16_f32 : FTy.bits .bf16 < FTy.bits .f32
  shapeCasts_S150000x512_S50000x3x512 : S150000x512.ShapeCasts S50000x3x512
  reducesTo_S50000x3x512_S50000x3_d2 : S50000x3x512.ReducesTo [2] S50000x3
  bcast_S50000x3_S50000x3x1_0_1 : S50000x3.BroadcastsInDim S50000x3x1 (![0, 1] : Fin 2 → Fin S50000x3x1.rank)
  bcast_S_S50000x3x1 : S_.BroadcastsInDim S50000x3x1 (![] : Fin 0 → Fin S50000x3x1.rank)
  bcast_S50000x3x1_S50000x3x512_0_1_2 : S50000x3x1.BroadcastsInDim S50000x3x512 (![0, 1, 2] : Fin 3 → Fin S50000x3x512.rank)
  slices_S50000x3x512_S50000x1x512_0_0_0 : S50000x3x512.Slices ![0, 0, 0] S50000x1x512
  shapeCasts_S50000x1x512_S50000x512 : S50000x1x512.ShapeCasts S50000x512
  slices_S50000x3x512_S50000x1x512_0_1_0 : S50000x3x512.Slices ![0, 1, 0] S50000x1x512
  slices_S50000x3x512_S50000x1x512_0_2_0 : S50000x3x512.Slices ![0, 2, 0] S50000x1x512
  pads_S50000x512_S50176x512_01760_000 : S50000x512.Pads (![0, 0] : Fin 2 → Nat) ![176, 0] ![0, 0] S50176x512
  shapeCasts_S1024_S1024x1 : S1024.ShapeCasts S1024x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  iota_S1024x512_d1_w32 : S1024x512.Iotas .tc 32 [1]
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x512 : S1024x1.Broadcasts S1024x512
  dot_S1024x512_S512x512_S1024x512_1_1_0_0_n_n_wf : DotDims.WF S1024x512 S512x512 S1024x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S1024x512.size a
  hwx0_0 : ∀ i : grid0.Coords, EltTy.bits .bf16 = 32 ∨ (Rect.block (s := S1024x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S50176x512.size a
  hwx0_1 : ∀ i : grid0.Coords, EltTy.bits .bf16 = 32 ∨ (Rect.block (s := S50176x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S50176x512.size a
  hwx0_2 : ∀ i : grid0.Coords, EltTy.bits .bf16 = 32 ∨ (Rect.block (s := S50176x512) S512x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S50176x512.size a
  hwx0_3 : ∀ i : grid0.Coords, EltTy.bits .bf16 = 32 ∨ (Rect.block (s := S50176x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S1024x1.size a
  hwx0_4 : ∀ i : grid0.Coords, EltTy.bits .i32 = 32 ∨ (Rect.block (s := S1024x1) S1024x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S1024x512.size a < S1024x50000.size a
  hwx0_5 : ∀ i : grid0.Coords, EltTy.bits .f32 = 32 ∨ (Rect.unit (s := S1024x50000) (fun a => cc0_transform_5 i a * S1024x512.size a) (fun a => (Pipeline.Clip.of (cc0_transform_5 i a) (S1024x512.size a) (S1024x50000.size a)).extent (S1024x512.size a)) fun a => Pipeline.Clip.inb (Pipeline.Clip.ok_of (hstart0_5 i a))).WholeWords (EltTy.packing .f32)
  hwxs0_5 : ∀ i : grid0.Coords, EltTy.bits .f32 = 32 ∨ (Rect.unit (s := S1024x512) (fun _ => 0) (fun a => (Pipeline.Clip.of (cc0_transform_5 i a) (S1024x512.size a) (S1024x50000.size a)).extent (S1024x512.size a)) fun a => (Nat.zero_add _).trans_le (Pipeline.Clip.extent_le (Pipeline.Clip.ok_of (hstart0_5 i a)))).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hstart0_6 : ∀ (i : grid0.Coords) a, cc0_transform_6 i a * S1024x512.size a < S1024x50000.size a
  hwx0_6 : ∀ i : grid0.Coords, EltTy.bits .f32 = 32 ∨ (Rect.unit (s := S1024x50000) (fun a => cc0_transform_6 i a * S1024x512.size a) (fun a => (Pipeline.Clip.of (cc0_transform_6 i a) (S1024x512.size a) (S1024x50000.size a)).extent (S1024x512.size a)) fun a => Pipeline.Clip.inb (Pipeline.Clip.ok_of (hstart0_6 i a))).WholeWords (EltTy.packing .f32)
  hwxs0_6 : ∀ i : grid0.Coords, EltTy.bits .f32 = 32 ∨ (Rect.unit (s := S1024x512) (fun _ => 0) (fun a => (Pipeline.Clip.of (cc0_transform_6 i a) (S1024x512.size a) (S1024x50000.size a)).extent (S1024x512.size a)) fun a => (Nat.zero_add _).trans_le (Pipeline.Clip.extent_le (Pipeline.Clip.ok_of (hstart0_6 i a)))).WholeWords (EltTy.packing .f32)

variable [Facts₀]

def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf

abbrev win0_0 : Pipeline.Window sig grid0 :=
  Pipeline.Window.ofSpec (Memref.whole main_v8) S1024x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v25) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v28) S1024x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpecClip (Memref.whole main_v29_0) S1024x512.size cc0_transform_5 reads0_5 true false 2 stage0_5 sem0_5
    hrank0 hreads0_5 hstart0_5 nbuf0_5 (Memref.isWhole_whole _) hwx0_5 hwxs0_5 hstage0_5

abbrev win0_6 : Pipeline.Window sig grid0 :=
  Pipeline.Window.ofSpecClip (Memref.whole main_v29_1) S1024x512.size cc0_transform_6 reads0_6 true false 2 stage0_6 sem0_6
    hrank0 hreads0_6 hstart0_6 nbuf0_6 (Memref.isWhole_whole _) hwx0_6 hwxs0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1024x512 : Shape := ⟨2, ![1024, 512]⟩
abbrev S1024 : Shape := ⟨1, ![1024]⟩
abbrev S150000x512 : Shape := ⟨2, ![150000, 512]⟩
abbrev S_ : Shape := ⟨0, ![]⟩
abbrev S1024x1 : Shape := ⟨2, ![1024, 1]⟩
abbrev S150000 : Shape := ⟨1, ![150000]⟩
abbrev S150000x1 : Shape := ⟨2, ![150000, 1]⟩
abbrev S1024x150000 : Shape := ⟨2, ![1024, 150000]⟩
abbrev S1024x50000x3 : Shape := ⟨3, ![1024, 50000, 3]⟩
abbrev S1024x50000 : Shape := ⟨2, ![1024, 50000]⟩
abbrev S1x50000 : Shape := ⟨2, ![1, 50000]⟩

abbrev nBuf : Space → Nat
  | .hbm => 69
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024, .i32⟩
  | .hbm, ⟨2, _⟩ => ⟨S150000x512, .f32⟩
  | .hbm, ⟨3, _⟩ => ⟨S1024x512, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S_, .f32⟩
  | .hbm, ⟨8, _⟩ => ⟨S1024x1, .f32⟩
  | .hbm, ⟨9, _⟩ => ⟨S1024x1, .f32⟩
  | .hbm, ⟨10, _⟩ => ⟨S1024x1, .f32⟩
  | .hbm, ⟨11, _⟩ => ⟨S1024x512, .f32⟩
  | .hbm, ⟨12, _⟩ => ⟨S1024x512, .f32⟩
  | .hbm, ⟨13, _⟩ => ⟨S150000x512, .f32⟩
  | .hbm, ⟨14, _⟩ => ⟨S_, .f32⟩
  | .hbm, ⟨15, _⟩ => ⟨S150000, .f32⟩
  | .hbm, ⟨16, _⟩ => ⟨S150000x1, .f32⟩
  | .hbm, ⟨17, _⟩ => ⟨S_, .f32⟩
  | .hbm, ⟨18, _⟩ => ⟨S150000x1, .f32⟩
  | .hbm, ⟨19, _⟩ => ⟨S150000x1, .f32⟩
  | .hbm, ⟨20, _⟩ => ⟨S150000x1, .f32⟩
  | .hbm, ⟨21, _⟩ => ⟨S150000x512, .f32⟩
  | .hbm, ⟨22, _⟩ => ⟨S150000x512, .f32⟩
  | .hbm, ⟨23, _⟩ => ⟨S1024x150000, .f32⟩
  | .hbm, ⟨24, _⟩ => ⟨S1024x50000x3, .f32⟩
  | .hbm, ⟨25, _⟩ => ⟨S_, .f32⟩
  | .hbm, ⟨26, _⟩ => ⟨S1024x50000, .f32⟩
  | .hbm, ⟨27, _⟩ => ⟨S1024x50000, .f32⟩
  | .hbm, ⟨28, _⟩ => ⟨S_, .f32⟩
  | .hbm, ⟨29, _⟩ => ⟨S1024x50000, .f32⟩
  | .hbm, ⟨30, _⟩ => ⟨S1024x50000, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S1024x50000, .f32⟩
  | .hbm, ⟨35, _⟩ => ⟨S1024x50000, .f32⟩
  | .hbm, ⟨36, _⟩ => ⟨S_, .f32⟩
  | .hbm, ⟨37, _⟩ => ⟨S1024x50000, .f32⟩
  | .hbm, ⟨38, _⟩ => ⟨S1024x50000, .f32⟩
  | .hbm, ⟨39, _⟩ => ⟨S1024x50000, .f32⟩
  | .hbm, ⟨40, _⟩ => ⟨S_, .f32⟩
  | .hbm, ⟨41, _⟩ => ⟨S1024x50000, .f32⟩
  | .hbm, ⟨42, _⟩ => ⟨S1024x50000, .f32⟩
  | .hbm, ⟨43, _⟩ => ⟨S_, .f32⟩
  | .hbm, ⟨44, _⟩ => ⟨S1024x50000, .f32⟩
  | .hbm, ⟨45, _⟩ => ⟨S1024x50000, .f32⟩
  | .hbm, ⟨46, _⟩ => ⟨S1024x50000, .f32⟩
  | .hbm, ⟨47, _⟩ => ⟨S_, .f32⟩
  | .hbm, ⟨48, _⟩ => ⟨S1024x50000, .f32⟩
  | .hbm, ⟨49, _⟩ => ⟨S1024x50000, .i1⟩
  | .hbm, ⟨50, _⟩ => ⟨S_, .f32⟩
  | .hbm, ⟨51, _⟩ => ⟨S1024x50000, .f32⟩
  | .hbm, ⟨52, _⟩ => ⟨S1024x50000, .f32⟩
  | .hbm, ⟨53, _⟩ => ⟨S1024x50000, .f32⟩
  | .hbm, ⟨54, _⟩ => ⟨S1024x1, .i32⟩
  | .hbm, ⟨55, _⟩ => ⟨S1x50000, .i32⟩
  | .hbm, ⟨56, _⟩ => ⟨S1024x50000, .i32⟩
  | .hbm, ⟨57, _⟩ => ⟨S1024x50000, .i32⟩
  | .hbm, ⟨58, _⟩ => ⟨S1024x50000, .i1⟩
  | .hbm, ⟨59, _⟩ => ⟨S1024x50000, .f32⟩
  | .hbm, ⟨60, _⟩ => ⟨S1024x50000, .f32⟩
  | .hbm, ⟨61, _⟩ => ⟨S_, .f32⟩
  | .hbm, ⟨62, _⟩ => ⟨S1024x50000, .f32⟩
  | .hbm, ⟨63, _⟩ => ⟨S1024x50000, .f32⟩
  | .hbm, ⟨64, _⟩ => ⟨S1024x50000, .f32⟩
  | .hbm, ⟨65, _⟩ => ⟨S1024x50000, .f32⟩
  | .hbm, ⟨66, _⟩ => ⟨S_, .f32⟩
  | .hbm, ⟨67, _⟩ => ⟨S1024x50000, .f32⟩
  | .hbm, ⟨68, _⟩ => ⟨S1024x50000, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_cst_6 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v22 : Ref sig .tc := ⟨.hbm, 38, rfl⟩
abbrev main_v23 : Ref sig .tc := ⟨.hbm, 39, rfl⟩
abbrev main_cst_7 : Ref sig .tc := ⟨.hbm, 40, rfl⟩
abbrev main_v24 : Ref sig .tc := ⟨.hbm, 41, rfl⟩
abbrev main_v25 : Ref sig .tc := ⟨.hbm, 42, rfl⟩
abbrev main_cst_8 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_9 : Ref sig .tc := ⟨.hbm, 47, rfl⟩
abbrev main_v29 : Ref sig .tc := ⟨.hbm, 48, rfl⟩
abbrev main_v30 : Ref sig .tc := ⟨.hbm, 49, rfl⟩
abbrev main_cst_10 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_v34 : Ref sig .tc := ⟨.hbm, 59, rfl⟩
abbrev main_v35 : Ref sig .tc := ⟨.hbm, 60, rfl⟩
abbrev main_cst_11 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_12 : Ref sig .tc := ⟨.hbm, 66, rfl⟩
abbrev main_v40 : Ref sig .tc := ⟨.hbm, 67, rfl⟩
abbrev main_v41 : Ref sig .tc := ⟨.hbm, 68, rfl⟩

abbrev nD : Nat := 1
abbrev τ : Topo := Topo.v7x

variable {F : FTy → Type} [FloatOps F]

class Facts₀ : Prop where
  reducesTo_S1024x512_S1024_d1 : S1024x512.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x512_0_1 : S1024x1.BroadcastsInDim S1024x512 (![0, 1] : Fin 2 → Fin S1024x512.rank)
  reducesTo_S150000x512_S150000_d1 : S150000x512.ReducesTo [1] S150000
  bcast_S150000_S150000x1_0 : S150000.BroadcastsInDim S150000x1 (![0] : Fin 1 → Fin S150000x1.rank)
  bcast_S_S150000x1 : S_.BroadcastsInDim S150000x1 (![] : Fin 0 → Fin S150000x1.rank)
  bcast_S150000x1_S150000x512_0_1 : S150000x1.BroadcastsInDim S150000x512 (![0, 1] : Fin 2 → Fin S150000x512.rank)
  shapeCasts_S1024x150000_S1024x50000x3 : S1024x150000.ShapeCasts S1024x50000x3
  reducesTo_S1024x50000x3_S1024x50000_d2 : S1024x50000x3.ReducesTo [2] S1024x50000
  bcast_S_S1024x50000 : S_.BroadcastsInDim S1024x50000 (![] : Fin 0 → Fin S1024x50000.rank)
  bcast_S1024x1_S1024x50000_0_1 : S1024x1.BroadcastsInDim S1024x50000 (![0, 1] : Fin 2 → Fin S1024x50000.rank)
  bcast_S1x50000_S1024x50000_0_1 : S1x50000.BroadcastsInDim S1024x50000 (![0, 1] : Fin 2 → Fin S1024x50000.rank)
  dot_S1024x512_S150000x512_S1024x150000_1_1_0_0_n_n_wf : DotDims.WF S1024x512 S150000x512 S1024x150000 [1] [1] [0] [0] [] []

variable [Facts₀]

def dot_S1024x512_S150000x512_S1024x150000_1_1_0_0_n_n : DotDims S1024x512 S150000x512 S1024x150000 where
  lhsContracting := [1]
  rhsContracting := [1]
  lhsNonContracting := [0]
  rhsNonContracting := [0]
  lhsBatch := []
  rhsBatch := []
  wf := dot_S1024x512_S150000x512_S1024x150000_1_1_0_0_n_n_wf

class Facts : Prop extends Facts₀ where

variable [Facts]
-- ==== Proof.Spec.lean ====
/-
  The mathematics shared by the two programs, over the extended reals, with no program in sight.

  Both programs compute, for a batch row b and a class c, the largest of the three inner products of the
  normalised row x_b with the normalised weight rows w_(3c), w_(3c+1), w_(3c+2) (the class's three sub-centres),
  and from that cosine the additive-angular-margin logit.  They differ in three places only:
    * the normalisation: one multiplies by the reciprocal square root of (sum of squares + eps), the other
      divides by the square root of the same quantity.  On the extended reals these agree whenever the
      quantity is above zero (a positive real, or +inf where both give 0), and a sum of squares plus a positive
      eps is always above zero (a square is never below zero, +-inf included);
    * the maximum of three: a nested maximum against a fold of the maximum from -inf;
    * the choice between the margin value and the plain cosine at the labelled class: a select on the
      comparison bit against the arithmetic blend  h * phi + (1 - h) * cos  with h the bit as a number 0 or 1,
      which is the same value because 0 * y = 0 and 1 - 1 = 0 hold for every extended real y.
-/
import Idealize.ShloMosaic.PureOps.Ideal
import Idealize.ShloMosaic.PureOps.Ideal.Laws
import Idealize.ShloMosaic.Lib.ValueIdx
import Mathlib.Data.Finset.Fold

noncomputable section

namespace Cert.Spec

open Idealize.ShloMosaic Idealize.ShloMosaic.ValueIdx
open scoped BigOperators

/-! ## Reciprocal square root against division by the square root -/

/-- For s above zero, a times the reciprocal square root of s is a divided by the square root of s: for a
    positive real s both are a * (sqrt s)^-1, and at s = +inf both are a * 0. -/
theorem mul_rsqrt_eq_div_sqrt (a s : EReal) (hs : 0 < s) : a * Ideal.rsqrt s = Ideal.div a (Ideal.sqrt s) := by
  induction s using EReal.rec with
  | bot => exact absurd hs (not_lt.mpr bot_le)
  | top =>
    rw [Ideal.rsqrt_top, Ideal.sqrt_top, Ideal.div, if_neg (by decide : ¬((⊤ : EReal) = 0)), EReal.inv_top]
  | coe r =>
    have hr : 0 < r := EReal.coe_pos.mp hs
    have hsq : Real.sqrt r ≠ 0 := (Real.sqrt_pos.mpr hr).ne'
    rw [Ideal.rsqrt_coe, if_neg (not_lt.mpr hr.le), if_neg hr.ne', Ideal.sqrt_coe, if_neg (not_lt.mpr hr.le),
      Ideal.div_coe hsq, one_div]

/-- A square is never below zero on the extended reals. -/
theorem mul_self_nonneg (a : EReal) : 0 ≤ a * a :=
  EReal.mul_nonneg_iff.mpr ((le_total 0 a).imp (fun h => ⟨h, h⟩) (fun h => ⟨h, h⟩))

/-- Zero plus a sum of squares plus something above zero is above zero. -/
theorem sumsq_add_pos {n : Nat} (v : Fin n → EReal) (z e : EReal) (hz : z = 0) (he : 0 < e) :
    0 < (z + ∑ k : Fin n, v k * v k) + e := by
  rw [hz, zero_add, add_comm]
  exact EReal.add_pos_of_pos_of_nonneg he (Finset.sum_nonneg fun k _ => mul_self_nonneg (v k))

/-- The stabiliser eps (the f32 nearest 1e-12) denotes a number above zero. -/
theorem eps_pos : (0 : EReal) < Ideal.ofBits .f32 0x2B8CBCCC#32 := by
  simp [Ideal.ofBits, Ideal.ieee]
  positivity

/-! ## The largest of three -/

/-- The maximum folded from -inf over three values is their nested maximum. -/
theorem max3_bot (a b c : EReal) : max (max (max ⊥ a) b) c = max (max a b) c := by
  rw [max_eq_right (bot_le : (⊥ : EReal) ≤ a)]

/-! ## The margin -/

/-- cos(theta + m) by the addition formula from cos(theta) = c, with sin(theta) taken as the square root of
    1 - c^2 clipped to [0, 1]; kept only where c is above the threshold th, else c - mm. -/
def phi (cm sm th mm one zero : EReal) (c : EReal) : EReal :=
  Scalar.select (Ideal.cmp .ogt c th) (c * cm - Ideal.sqrt (min one (max zero (one - c * c))) * sm) (c - mm)

/-- The selecting form: the margin value at the labelled class (bit h = 1), the cosine elsewhere, scaled. -/
def marginSel (cm sm th mm one zero scale : EReal) (c : EReal) (h : BitVec 1) : EReal :=
  Scalar.select h (phi cm sm th mm one zero c) c * scale

/-- The blending form over the bit read as the number 0 or 1. -/
def marginBlend (cm sm th mm one zero scale : EReal) (c : EReal) (h : EReal) : EReal :=
  (h * phi cm sm th mm one zero c + (one - h) * c) * scale

/-- With the literal one denoting 1, the blend at h = 1 is the margin value and at h = 0 the cosine. -/
theorem marginBlend_eq_marginSel (cm sm th mm one zero scale : EReal) (hone : one = 1) (c : EReal) (h : BitVec 1)
    (hv : EReal) (h1 : h = 1#1 → hv = 1) (h0 : h = 0#1 → hv = 0) :
    marginBlend cm sm th mm one zero scale c hv = marginSel cm sm th mm one zero scale c h := by
  unfold marginBlend marginSel
  rcases BitVec.eq_zero_or_eq_one h with hh | hh
  · subst hh
    rw [h0 rfl, select_zero, hone, zero_mul, zero_add, sub_zero, one_mul]
  · subst hh
    rw [h1 rfl, select_one, hone, one_mul]
    have : (1 : EReal) - 1 = 0 := by rw [← EReal.coe_one, ← EReal.coe_sub, sub_self, EReal.coe_zero]
    rw [this, zero_mul, add_zero]

/-! ## The two results as functions of the arguments -/

/-- The literals both programs spell with the same words. -/
abbrev zero32 : EReal := Ideal.ofBits .f32 0x00000000#32
abbrev eps : EReal := Ideal.ofBits .f32 0x2B8CBCCC#32
abbrev cm : EReal := Ideal.ofBits .f32 0x3F7490EF#32
abbrev sm : EReal := Ideal.ofBits .f32 0x3E974E6D#32
abbrev th : EReal := Ideal.ofBits .f32 0xBF7490EF#32
abbrev mm : EReal := Ideal.ofBits .f32 0x3DB5914F#32
abbrev one32 : EReal := Ideal.ofBits .f32 0x3F800000#32
abbrev scale : EReal := Ideal.ofBits .f32 0x41F00000#32

/-- A row's sum of squares (summed from the zero word) plus eps: what both normalisations take a root of. -/
def ssq {n : Nat} (v : Fin n → EReal) : EReal := (zero32 + ∑ k : Fin n, v k * v k) + eps

theorem ssq_pos {n : Nat} (v : Fin n → EReal) : 0 < ssq v :=
  sumsq_add_pos v zero32 eps Ideal.ofBits_zero_f32 eps_pos

/-- A row normalised by multiplying with the reciprocal root, -/
def nrmK {n : Nat} (v : Fin n → EReal) (k : Fin n) : EReal := v k * Ideal.rsqrt (ssq v)
/-- and by dividing by the root: the same row. -/
def nrmR {n : Nat} (v : Fin n → EReal) (k : Fin n) : EReal := Ideal.div (v k) (Ideal.sqrt (ssq v))

theorem nrmR_eq_nrmK {n : Nat} (v : Fin n → EReal) (k : Fin n) : nrmR v k = nrmK v k :=
  (mul_rsqrt_eq_div_sqrt (v k) (ssq v) (ssq_pos v)).symm

abbrev SX : Shape := ⟨2, ![1024, 512]⟩
abbrev SW : Shape := ⟨2, ![150000, 512]⟩
abbrev SL : Shape := ⟨1, ![1024]⟩
abbrev SO : Shape := ⟨2, ![1024, 50000]⟩

/-- Row b of the batch, row r of the weight table. -/
def rowX (x : SX.Idx → EReal) (b : Fin 1024) : Fin 512 → EReal := fun k => x (ix2 b k)
def rowW (w : SW.Idx → EReal) (r : Fin 150000) : Fin 512 → EReal := fun k => w (ix2 r k)

/-- Sub-centre j of class c is row 3c + j of the weight table. -/
def sub (c : Fin 50000) (j : Fin 3) : Fin 150000 := ⟨3 * c.val + j.val, by have := c.isLt; have := j.isLt; omega⟩

/-- The inner product of the normalised batch row b with the normalised weight row r. -/
def dotN (x : SX.Idx → EReal) (w : SW.Idx → EReal) (b : Fin 1024) (r : Fin 150000) : EReal :=
  ∑ k : Fin 512, nrmK (rowX x b) k * nrmK (rowW w r) k

/-- The cosine of row b against class c: the largest over the class's three sub-centres. -/
def cosine (x : SX.Idx → EReal) (w : SW.Idx → EReal) (b : Fin 1024) (c : Fin 50000) : EReal :=
  max (max (dotN x w b (sub c 0)) (dotN x w b (sub c 1))) (dotN x w b (sub c 2))

/-- Whether class c is row b's label, as a comparison bit. -/
def hit (l : SL.Idx → BitVec 32) (b : Fin 1024) (c : Fin 50000) : BitVec 1 :=
  IntOp.cmpi .eq (l (ix1 b)) (BitVec.ofNat 32 c.val)

/-- The first result: the cosines. -/
def G0 (x : SX.Idx → EReal) (w : SW.Idx → EReal) : SO.Idx → EReal := fun i => cosine x w (i 0) (i 1)
/-- The second result: the scaled margin logits. -/
def G1 (x : SX.Idx → EReal) (l : SL.Idx → BitVec 32) (w : SW.Idx → EReal) : SO.Idx → EReal := fun i =>
  marginSel cm sm th mm one32 zero32 scale (cosine x w (i 0) (i 1)) (hit l (i 0) (i 1))

/-- The literal 1.0 denotes 1, and the literal -inf denotes the bottom element. -/
theorem one32_eq : one32 = 1 := by
  simp [Ideal.ofBits, Ideal.ieee, -EReal.coe_mul]; norm_num
theorem ninf_eq : Ideal.ofBits .f32 0xFF800000#32 = ⊥ := by simp [Ideal.ofBits, Ideal.ieee]

/-- The maximum folded from the bottom element over three values, in whatever order, is their nested maximum. -/
theorem fold_max3 (f : Fin 3 → EReal) :
    (Finset.univ : Finset (Fin 3)).fold max ⊥ f = max (max (f 0) (f 1)) (f 2) := by
  apply le_antisymm
  · refine (Finset.fold_max_le _).mpr ⟨bot_le, fun k _ => ?_⟩
    fin_cases k
    · exact le_max_of_le_left (le_max_left _ _)
    · exact le_max_of_le_left (le_max_right _ _)
    · exact le_max_right _ _
  · exact max_le (max_le ((Finset.le_fold_max _).mpr (Or.inr ⟨0, Finset.mem_univ _, le_rfl⟩))
      ((Finset.le_fold_max _).mpr (Or.inr ⟨1, Finset.mem_univ _, le_rfl⟩)))
      ((Finset.le_fold_max _).mpr (Or.inr ⟨2, Finset.mem_univ _, le_rfl⟩))

end Cert.Spec

end
-- ==== Proof.KernelHostDefs.lean ====
/-
  The host operations the kernel's program runs before its region, as functions of the argument arrays, and read at
  an index.

  The batch x is normalised row by row (each entry times the reciprocal root of the row's sum of squares plus eps);
  the weight table, viewed [50000, 3, 512] (class, sub-centre, feature: entry (c, j, k) of the view is entry
  (3c + j, k) of the table), likewise; then for each sub-centre j the [50000, 512] slab of that sub-centre is cut out
  and padded below with 176 zero rows to 50176 rows, a whole number of 512-row blocks.  Changes of float format are
  the identity on the extended reals.
-/
import proofs.«138764_j50139448213649_2_alg».proof.Proof.Gen.KernelIdeal
import proofs.«138764_j50139448213649_2_alg».proof.Proof.Spec
import Idealize.ShloMosaic.Lib.ValueIdx
import Idealize.ShloMosaic.Lib.Pipeline.Value
import Idealize.ShloMosaic.Lib.KernelVsHost
import Idealize.ShloMosaic.PureOps.Ideal.Laws

noncomputable section

namespace Cert.KernelIdeal.HostOps

open Cert.KernelIdeal Cert.KernelIdeal.Gen Idealize.ShloMosaic Idealize.ShloMosaic.ValueIdx
open scoped BigOperators

/-- The one coordinate of a unit axis. -/
abbrev z1 : Fin 1 := ⟨0, Nat.one_pos⟩

/-- The host's reciprocal root of a vector, at an index. -/
theorem hostRsqrt_at {s : Shape} (y : FVec Ideal s .f32) (i : s.Idx) : Host.rsqrt y i = Ideal.rsqrt (y i) := rfl

/-! ## The terms -/

/-- Each batch row's sum of squares plus eps, as a [1024, 1] column. -/
def ssqX (x : FVec Ideal S1024x512 .f32) : FVec Ideal S1024x1 .f32 :=
  addf (broadcastInDim S1024x1 ![0] bcast_S1024_S1024x1_0
      (Host.reduceAdd (mulf x x) (constant (F := Ideal) S_ .f32 0x00000000#32) reducesTo_S1024x512_S1024_d1 h_S_))
    (broadcastInDim S1024x1 ![] bcast_S_S1024x1 (constant (F := Ideal) S_ .f32 0x2B8CBCCC#32))

/-- The normalised batch. -/
def xnArr (x : FVec Ideal S1024x512 .f32) : FVec Ideal S1024x512 .bf16 :=
  truncf .bf16 (mulf x (broadcastInDim S1024x512 ![0, 1] bcast_S1024x1_S1024x512_0_1 (Host.rsqrt (ssqX x)))) bitsLt_bf16_f32

/-- The weight table viewed [50000, 3, 512]. -/
def w3Arr (w : FVec Ideal S150000x512 .f32) : FVec Ideal S50000x3x512 .f32 :=
  shapeCast S50000x3x512 w shapeCasts_S150000x512_S50000x3x512

/-- Each (class, sub-centre) row's sum of squares plus eps, as a [50000, 3, 1] array. -/
def ssqW (w3 : FVec Ideal S50000x3x512 .f32) : FVec Ideal S50000x3x1 .f32 :=
  addf (broadcastInDim S50000x3x1 ![0, 1] bcast_S50000x3_S50000x3x1_0_1
      (Host.reduceAdd (mulf w3 w3) (constant (F := Ideal) S_ .f32 0x00000000#32) reducesTo_S50000x3x512_S50000x3_d2 h_S_))
    (broadcastInDim S50000x3x1 ![] bcast_S_S50000x3x1 (constant (F := Ideal) S_ .f32 0x2B8CBCCC#32))

/-- The normalised weight view. -/
def wnArr (w3 : FVec Ideal S50000x3x512 .f32) : FVec Ideal S50000x3x512 .bf16 :=
  truncf .bf16 (mulf w3 (broadcastInDim S50000x3x512 ![0, 1, 2] bcast_S50000x3x1_S50000x3x512_0_1_2 (Host.rsqrt (ssqW w3)))) bitsLt_bf16_f32

/-- A [50000, 512] slab padded below to 50176 rows with the zero word. -/
def padded (y : FVec Ideal S50000x512 .bf16) : FVec Ideal S50176x512 .bf16 :=
  pad S50176x512 ![0, 0] ![176, 0] ![0, 0] y (sitofp (F := Ideal) .bf16 (constantI S_ 32 0#32)) pads_S50000x512_S50176x512_01760_000 h_S_

/-- The three sub-centre slabs of the normalised weights, padded. -/
def slab0 (w : FVec Ideal S150000x512 .f32) : FVec Ideal S50176x512 .bf16 :=
  padded (shapeCast S50000x512 (extractStridedSlice S50000x1x512 ![0, 0, 0] (wnArr (w3Arr w)) slices_S50000x3x512_S50000x1x512_0_0_0) shapeCasts_S50000x1x512_S50000x512)
def slab1 (w : FVec Ideal S150000x512 .f32) : FVec Ideal S50176x512 .bf16 :=
  padded (shapeCast S50000x512 (extractStridedSlice S50000x1x512 ![0, 1, 0] (wnArr (w3Arr w)) slices_S50000x3x512_S50000x1x512_0_1_0) shapeCasts_S50000x1x512_S50000x512)
def slab2 (w : FVec Ideal S150000x512 .f32) : FVec Ideal S50176x512 .bf16 :=
  padded (shapeCast S50000x512 (extractStridedSlice S50000x1x512 ![0, 2, 0] (wnArr (w3Arr w)) slices_S50000x3x512_S50000x1x512_0_2_0) shapeCasts_S50000x1x512_S50000x512)

/-- The labels as a [1024, 1] column. -/
def lblCol (l : IVec S1024 32) : IVec S1024x1 32 := shapeCast S1024x1 l shapeCasts_S1024_S1024x1

/-! ## The batch side at an index -/

theorem ssqX_at (x : FVec Ideal S1024x512 .f32) (b : Fin 1024) : ssqX x (ix2 b z1) = Spec.ssq (Spec.rowX x b) := by
  unfold ssqX
  refine (addf_apply _ _ _).trans ?_
  rw [broadcastInDim_apply ![0] bcast_S1024_S1024x1_0 _ (ix2 b z1) (ix1 b) (fun a => match a with
      | ⟨0, _⟩ => by show b.val = if (1024 : Nat) = 1 then 0 else b.val; rw [if_neg (by decide)]),
    broadcastInDim_apply ![] bcast_S_S1024x1 _ (ix2 b z1) ix0 (fun a => a.elim0)]
  simp only [Host.reduceAdd, Ideal.hostReduceAdd_def]
  rw [Ideal.hostReduceAdd_single reducesTo_S1024x512_S1024_d1 (by decide)]
  unfold Spec.ssq Spec.rowX
  refine congrArg₂ (· + ·) (congrArg₂ (· + ·) rfl (Finset.sum_congr rfl fun k _ => ?_)) rfl
  exact congrArg (fun i => x i * x i) (funext fun a => Fin.ext (by match a with | ⟨0, _⟩ => rfl | ⟨1, _⟩ => rfl))

theorem xnArr_at (x : FVec Ideal S1024x512 .f32) (b : Fin 1024) (k : Fin 512) :
    xnArr x (ix2 b k) = Spec.nrmK (Spec.rowX x b) k := by
  unfold xnArr
  show x (ix2 b k) * broadcastInDim S1024x512 ![0, 1] bcast_S1024x1_S1024x512_0_1 (Host.rsqrt (ssqX x)) (ix2 b k) = _
  rw [broadcastInDim_apply ![0, 1] bcast_S1024x1_S1024x512_0_1 _ (ix2 b k) (ix2 b z1) (fun a => match a with
      | ⟨0, _⟩ => by show b.val = if (1024 : Nat) = 1 then 0 else b.val; rw [if_neg (by decide)]
      | ⟨1, _⟩ => by show 0 = if (1 : Nat) = 1 then 0 else k.val; rw [if_pos rfl])]
  rw [hostRsqrt_at, ssqX_at]
  rfl

/-! ## The weight side at an index -/

theorem w3Arr_at (w : FVec Ideal S150000x512 .f32) (c : Fin 50000) (j : Fin 3) (k : Fin 512) :
    w3Arr w (ix3 c j k) = w (ix2 (Spec.sub c j) k) := by
  unfold w3Arr
  exact shapeCast_apply w shapeCasts_S150000x512_S50000x3x512 (ix3 c j k) (ix2 (Spec.sub c j) k)
    (by rewrite [Shape.rowMajor_val_two, Shape.rowMajor_val_three]
        have hc := c.isLt; have hj := j.isLt; have hk := k.isLt
        show (3 * c.val + j.val) * 512 + k.val = (c.val * 3 + j.val) * 512 + k.val
        omega)

theorem ssqW_at (w : FVec Ideal S150000x512 .f32) (c : Fin 50000) (j : Fin 3) :
    ssqW (w3Arr w) (ix3 c j z1) = Spec.ssq (Spec.rowW w (Spec.sub c j)) := by
  unfold ssqW
  refine (addf_apply _ _ _).trans ?_
  rw [broadcastInDim_apply ![0, 1] bcast_S50000x3_S50000x3x1_0_1 _ (ix3 c j z1) (ix2 c j) (fun a => match a with
      | ⟨0, _⟩ => by show c.val = if (50000 : Nat) = 1 then 0 else c.val; rw [if_neg (by decide)]
      | ⟨1, _⟩ => by show j.val = if (3 : Nat) = 1 then 0 else j.val; rw [if_neg (by decide)]),
    broadcastInDim_apply ![] bcast_S_S50000x3x1 _ (ix3 c j z1) ix0 (fun a => a.elim0)]
  simp only [Host.reduceAdd, Ideal.hostReduceAdd_def]
  rw [Ideal.hostReduceAdd_single reducesTo_S50000x3x512_S50000x3_d2 (by decide)]
  unfold Spec.ssq Spec.rowW
  refine congrArg₂ (· + ·) (congrArg₂ (· + ·) rfl (Finset.sum_congr rfl fun k _ => ?_)) rfl
  refine (mulf_apply _ _ _).trans ?_
  have e : (Shape.Reduces.lift (by decide : S50000x3x512.Reduces [2] S50000x3) (ix2 c j) k) = ix3 c j (k : Fin 512) :=
    funext fun a => Fin.ext (by match a with | ⟨0, _⟩ => rfl | ⟨1, _⟩ => rfl | ⟨2, _⟩ => rfl)
  rw [e]
  exact congrArg₂ (· * ·) (w3Arr_at w c j k) (w3Arr_at w c j k)

theorem wnArr_at (w : FVec Ideal S150000x512 .f32) (c : Fin 50000) (j : Fin 3) (k : Fin 512) :
    wnArr (w3Arr w) (ix3 c j k) = Spec.nrmK (Spec.rowW w (Spec.sub c j)) k := by
  unfold wnArr
  show w3Arr w (ix3 c j k) * broadcastInDim S50000x3x512 ![0, 1, 2] bcast_S50000x3x1_S50000x3x512_0_1_2 (Host.rsqrt (ssqW (w3Arr w))) (ix3 c j k) = _
  rw [broadcastInDim_apply ![0, 1, 2] bcast_S50000x3x1_S50000x3x512_0_1_2 _ (ix3 c j k) (ix3 c j z1) (fun a => match a with
      | ⟨0, _⟩ => by show c.val = if (50000 : Nat) = 1 then 0 else c.val; rw [if_neg (by decide)]
      | ⟨1, _⟩ => by show j.val = if (3 : Nat) = 1 then 0 else j.val; rw [if_neg (by decide)]
      | ⟨2, _⟩ => by show 0 = if (1 : Nat) = 1 then 0 else k.val; rw [if_pos rfl])]
  rw [hostRsqrt_at, ssqW_at, w3Arr_at]
  rfl

/-- A padded slab at a row inside the slab is the slab there. -/
theorem padded_at (y : FVec Ideal S50000x512 .bf16) (c : Fin 50000) (k : Fin 512) :
    padded y (ix2 (⟨c.val, by have := c.isLt; omega⟩ : Fin 50176) k) = y (ix2 c k) := by
  unfold padded
  exact pad_apply_of_inside _ _ _ y _ pads_S50000x512_S50176x512_01760_000 h_S_ _ (ix2 c k) (fun a => match a with
    | ⟨0, _⟩ => by show c.val = 0 + c.val * (0 + 1); omega
    | ⟨1, _⟩ => by show k.val = 0 + k.val * (0 + 1); omega)

/-- Row c of the padded slab of sub-centre j is the normalised weight row 3c + j. -/
theorem slab0_at (w : FVec Ideal S150000x512 .f32) (c : Fin 50000) (k : Fin 512) :
    slab0 w (ix2 (⟨c.val, by have := c.isLt; omega⟩ : Fin 50176) k) = Spec.nrmK (Spec.rowW w (Spec.sub c 0)) k := by
  unfold slab0
  rw [padded_at, shapeCast_apply _ shapeCasts_S50000x1x512_S50000x512 (ix2 c k) (ix3 c z1 k)
      (by rewrite [Shape.rowMajor_val_two, Shape.rowMajor_val_three]; show (c.val * 1 + 0) * 512 + k.val = c.val * 512 + k.val; omega),
    extractStridedSlice_apply ![0, 0, 0] _ slices_S50000x3x512_S50000x1x512_0_0_0 (ix3 c z1 k) (ix3 c (0 : Fin 3) k) (fun a => match a with
      | ⟨0, _⟩ => by show c.val = 0 + c.val; omega
      | ⟨1, _⟩ => by show 0 = 0 + 0; rfl
      | ⟨2, _⟩ => by show k.val = 0 + k.val; omega)]
  exact wnArr_at w c 0 k
theorem slab1_at (w : FVec Ideal S150000x512 .f32) (c : Fin 50000) (k : Fin 512) :
    slab1 w (ix2 (⟨c.val, by have := c.isLt; omega⟩ : Fin 50176) k) = Spec.nrmK (Spec.rowW w (Spec.sub c 1)) k := by
  unfold slab1
  rw [padded_at, shapeCast_apply _ shapeCasts_S50000x1x512_S50000x512 (ix2 c k) (ix3 c z1 k)
      (by rewrite [Shape.rowMajor_val_two, Shape.rowMajor_val_three]; show (c.val * 1 + 0) * 512 + k.val = c.val * 512 + k.val; omega),
    extractStridedSlice_apply ![0, 1, 0] _ slices_S50000x3x512_S50000x1x512_0_1_0 (ix3 c z1 k) (ix3 c (1 : Fin 3) k) (fun a => match a with
      | ⟨0, _⟩ => by show c.val = 0 + c.val; omega
      | ⟨1, _⟩ => by show 1 = 1 + 0; rfl
      | ⟨2, _⟩ => by show k.val = 0 + k.val; omega)]
  exact wnArr_at w c 1 k
theorem slab2_at (w : FVec Ideal S150000x512 .f32) (c : Fin 50000) (k : Fin 512) :
    slab2 w (ix2 (⟨c.val, by have := c.isLt; omega⟩ : Fin 50176) k) = Spec.nrmK (Spec.rowW w (Spec.sub c 2)) k := by
  unfold slab2
  rw [padded_at, shapeCast_apply _ shapeCasts_S50000x1x512_S50000x512 (ix2 c k) (ix3 c z1 k)
      (by rewrite [Shape.rowMajor_val_two, Shape.rowMajor_val_three]; show (c.val * 1 + 0) * 512 + k.val = c.val * 512 + k.val; omega),
    extractStridedSlice_apply ![0, 2, 0] _ slices_S50000x3x512_S50000x1x512_0_2_0 (ix3 c z1 k) (ix3 c (2 : Fin 3) k) (fun a => match a with
      | ⟨0, _⟩ => by show c.val = 0 + c.val; omega
      | ⟨1, _⟩ => by show 2 = 2 + 0; rfl
      | ⟨2, _⟩ => by show k.val = 0 + k.val; omega)]
  exact wnArr_at w c 2 k

/-- The label column at row b is label b. -/
theorem lblCol_at (l : IVec S1024 32) (b : Fin 1024) : lblCol l (ix2 b z1) = l (ix1 b) := by
  unfold lblCol
  exact shapeCast_apply l shapeCasts_S1024_S1024x1 (ix2 b z1) (ix1 b)
    (by rewrite [Shape.rowMajor_val_one, Shape.rowMajor_val_two]; show b.val = b.val * 1 + 0; omega)

end Cert.KernelIdeal.HostOps

end
-- ==== Proof.KernelHostRun.lean ====
/-
  What the region finds in the five arrays it stages: the host operations before it, run from the launch memory,
  leave the normalised batch, the three padded sub-centre slabs of the normalised weights and the label column,
  each the named function of the argument arrays.
-/
import proofs.«138764_j50139448213649_2_alg».proof.Proof.FrameKernelIdeal
import proofs.«138764_j50139448213649_2_alg».proof.Proof.KernelHostDefs
import Idealize.ShloMosaic.Lib.StableHlo.Run

noncomputable section

namespace Cert.KernelIdeal.HostOps

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

theorem V_xn (c : Dev nD) :
    (GenP.V m c main_v8 : S1024x512.Idx → EReal) = xnArr (m ((c : Thread nD τ).loc main_arg0)) := by
  dsimp only [GenP.V]
  simp only [hostOps0, hostOps0_1, hostOps0_2, hostOps0_3, hostOps0_4, hostOps0_5, hostOps0_6, List.flatten_cons, List.flatten_nil, List.append_nil, List.cons_append, List.nil_append]
  after_results
  rfl

theorem V_slab0 (c : Dev nD) :
    (GenP.V m c main_v25 : S50176x512.Idx → EReal) = slab0 (m ((c : Thread nD τ).loc main_arg2)) := by
  dsimp only [GenP.V]
  simp only [hostOps0, hostOps0_1, hostOps0_2, hostOps0_3, hostOps0_4, hostOps0_5, hostOps0_6, List.flatten_cons, List.flatten_nil, List.append_nil, List.cons_append, List.nil_append]
  after_results
  rfl

theorem V_slab1 (c : Dev nD) :
    (GenP.V m c main_v26 : S50176x512.Idx → EReal) = slab1 (m ((c : Thread nD τ).loc main_arg2)) := by
  dsimp only [GenP.V]
  simp only [hostOps0, hostOps0_1, hostOps0_2, hostOps0_3, hostOps0_4, hostOps0_5, hostOps0_6, List.flatten_cons, List.flatten_nil, List.append_nil, List.cons_append, List.nil_append]
  after_results
  rfl

theorem V_slab2 (c : Dev nD) :
    (GenP.V m c main_v27 : S50176x512.Idx → EReal) = slab2 (m ((c : Thread nD τ).loc main_arg2)) := by
  dsimp only [GenP.V]
  simp only [hostOps0, hostOps0_1, hostOps0_2, hostOps0_3, hostOps0_4, hostOps0_5, hostOps0_6, List.flatten_cons, List.flatten_nil, List.append_nil, List.cons_append, List.nil_append]
  after_results
  rfl

theorem V_lbl (c : Dev nD) :
    (GenP.V m c main_v28 : S1024x1.Idx → BitVec 32) = lblCol (m ((c : Thread nD τ).loc main_arg1)) := by
  dsimp only [GenP.V]
  simp only [hostOps0, hostOps0_1, hostOps0_2, hostOps0_3, hostOps0_4, hostOps0_5, hostOps0_6, List.flatten_cons, List.flatten_nil, List.append_nil, List.cons_append, List.nil_append]
  after_results
  rfl

end Cert.KernelIdeal.HostOps

end
-- ==== Proof.KernelBody.lean ====
/-
  The kernel body's arithmetic, read at one element of its 1024 x 512 output blocks.

  At block element (b, q) the body's first stored value is the largest of the three inner products of row b of
  the (already normalised) batch block with row q of each of the three weight blocks; the second stored value is
  the margin logit of that cosine, selected where the row's label equals the column's global class index
  (the block's position times 512, plus q) and scaled.
-/
import proofs.«138764_j50139448213649_2_alg».proof.Proof.Gen.KernelIdeal.Skeleton
import proofs.«138764_j50139448213649_2_alg».proof.Proof.Spec
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx
open scoped BigOperators

abbrev D := dot_S1024x512_S512x512_S1024x512_1_1_0_0_n_n

/-! ## One matrix product at an element -/

theorem lhs0 (i : S1024x512.Idx) (q : D.contr.Idx) : (D.lhsIdx i q 0).val = (i 0).val := by
  unfold DotDims.lhsIdx
  rw [dif_neg (show ¬(0 : Fin S1024x512.rank) ∈ D.lhsBatch by decide), dif_pos (show (0 : Fin S1024x512.rank) ∈ D.lhsNonContracting by decide)]
  rfl
theorem lhs1 (i : S1024x512.Idx) (q : D.contr.Idx) : (D.lhsIdx i q 1).val = (q ⟨0, by decide⟩).val :=
  D.lhsIdx_val_of_single rfl i q
theorem rhs0 (i : S1024x512.Idx) (q : D.contr.Idx) : (D.rhsIdx i q 0).val = (i 1).val := by
  unfold DotDims.rhsIdx
  rw [dif_neg (show ¬(0 : Fin S512x512.rank) ∈ D.rhsBatch by decide), dif_pos (show (0 : Fin S512x512.rank) ∈ D.rhsNonContracting by decide)]
  rfl
theorem rhs1 (i : S1024x512.Idx) (q : D.contr.Idx) : (D.rhsIdx i q 1).val = (q ⟨0, by decide⟩).val :=
  D.rhsIdx_val_of_single rfl i q

/-- The product of a [1024, 512] block with a [512, 512] block contracted over their second axes, into a zero
    accumulator, at (b, q): the sum over k of left (b, k) times right (q, k). -/
theorem matmul_at (l : FVec Ideal S1024x512 .bf16) (r : FVec Ideal S512x512 .bf16) (b : Fin 1024) (q : Fin 512) :
    matmul D none l r (constant S1024x512 .f32 0x00000000#32) (ix2 b q)
      = ∑ k : Fin 512, l (ix2 b k) * r (ix2 q k) := by
  simp only [matmul]
  rw [Ideal.matmul_constant_zero_apply, ← Equiv.sum_comp (contrEquiv1 D 512 rfl rfl).symm]
  refine Finset.sum_congr rfl fun k _ => ?_
  have hk := contrEquiv1_symm_val D 512 rfl rfl k
  have el : D.lhsIdx (ix2 b q) ((contrEquiv1 D 512 rfl rfl).symm k) = ix2 b k := funext fun a => Fin.ext (by
    match a with
    | ⟨0, _⟩ => exact lhs0 _ _
    | ⟨1, _⟩ => exact (lhs1 _ _).trans hk)
  have er : D.rhsIdx (ix2 b q) ((contrEquiv1 D 512 rfl rfl).symm k) = ix2 q k := funext fun a => Fin.ext (by
    match a with
    | ⟨0, _⟩ => exact rhs0 _ _
    | ⟨1, _⟩ => exact (rhs1 _ _).trans hk)
  rw [el, er]

/-- The inner product of row b of a batch block with row q of a weight block. -/
def dot (l : S1024x512.Idx → EReal) (r : S512x512.Idx → EReal) (b : Fin 1024) (q : Fin 512) : EReal :=
  ∑ k : Fin 512, l (ix2 b k) * r (ix2 q k)

/-! ## The stored values at an element -/

/-- The cosine the body stores at (b, q): the largest of the three inner products. -/
theorem cos_at (x0 : FVec Ideal S1024x512 .bf16) (x1 x2 x3 : FVec Ideal S512x512 .bf16) (b : Fin 1024) (q : Fin 512) :
    k0_pay2 (F := Ideal) x0 x1 x2 x3 (ix2 b q) = max (max (dot x0 x1 b q) (dot x0 x2 b q)) (dot x0 x3 b q) := by
  unfold k0_pay2
  simp only [shapeCast_self]
  show max (max (matmul D none x0 x1 (constant S1024x512 .f32 0x00000000#32) (ix2 b q))
      (matmul D none x0 x2 (constant S1024x512 .f32 0x00000000#32) (ix2 b q)))
      (matmul D none x0 x3 (constant S1024x512 .f32 0x00000000#32) (ix2 b q)) = _
  rw [matmul_at, matmul_at, matmul_at]
  rfl

abbrev cm : EReal := Ideal.ofBits .f32 0x3F7490EF#32
abbrev sm : EReal := Ideal.ofBits .f32 0x3E974E6D#32
abbrev th : EReal := Ideal.ofBits .f32 0xBF7490EF#32
abbrev mm : EReal := Ideal.ofBits .f32 0x3DB5914F#32
abbrev one : EReal := Ideal.ofBits .f32 0x3F800000#32
abbrev zero : EReal := Ideal.ofBits .f32 0x00000000#32
abbrev scale : EReal := Ideal.ofBits .f32 0x41F00000#32

/-- The margin value the body computes at an element is the margin function of the cosine there. -/
theorem phi_at (x0 : FVec Ideal S1024x512 .bf16) (x1 x2 x3 : FVec Ideal S512x512 .bf16) (i : S1024x512.Idx) :
    k0_pay3 (F := Ideal) x0 x1 x2 x3 i = Spec.phi cm sm th mm one zero (k0_pay2 (F := Ideal) x0 x1 x2 x3 i) := rfl

/-- The global class index of column q of the block at grid position t, as a 32-bit word. -/
theorem col_at (t : grid0.Coords) (b : Fin 1024) (q : Fin 512) :
    k0_pay4 t (ix2 b q) = BitVec.ofNat 32 q.val + BitVec.ofNat 32 (t 0).val * 512#32 := by
  unfold k0_pay4
  show IntOp.addi (iota .tc S1024x512 32 [1] iota_S1024x512_d1_w32 (ix2 b q)) (Scalar.muli (BitVec.ofNat 32 (t 0).val) 512#32) = _
  rw [iota_single_apply]
  rfl

/-- The label the body compares with at row b: the one entry of row b of the [1024, 1] label block. -/
theorem lbl_at (x4 : Vec Ideal S1024x1 .i32) (b : Fin 1024) (q : Fin 512) :
    k0_pay5 (F := Ideal) x4 (ix2 b q) = x4 (ix2 b (⟨0, Nat.one_pos⟩ : Fin 1)) := by
  unfold k0_pay5
  simp only [shapeCast_self]
  exact broadcastTo_apply x4 broadcasts_S1024x1_S1024x512 (ix2 b q) (ix2 b (⟨0, Nat.one_pos⟩ : Fin 1)) (fun a => match a with
    | ⟨0, _⟩ => by show b.val = if (1024 : Nat) = 1 then 0 else b.val; rw [if_neg (by decide)]
    | ⟨1, _⟩ => by show 0 = if (1 : Nat) = 1 then 0 else q.val; rw [if_pos rfl])

/-- The scaled logit the body stores at an element: the margin value where the label equals the class index,
    the cosine elsewhere, times the scale. -/
theorem margin_at (v12 v30 : FVec Ideal S1024x512 .f32) (v34 v37 : IVec S1024x512 32) (i : S1024x512.Idx) :
    k0_pay1 (F := Ideal) v12 v30 v34 v37 i
      = Scalar.select (IntOp.cmpi .eq (v37 i) (v34 i)) (v30 i) (v12 i) * scale := rfl

end Cert.KernelIdeal.Body

end
-- ==== Proof.KernelValue.lean ====
/-
  The two result arrays after the kernel's run, as functions of the argument arrays.

  The grid has 98 points; point t works on columns 512 t .. 512 t + 511 of the [1024, 50000] results, of which the
  last point's block overhangs the array (50176 > 50000) and is written back only on its part inside.  What point t
  writes back through result window 5 is its block of the cosines, through window 6 its block of the margin logits:
  the batch block is the whole normalised batch, weight block t of sub-centre j holds the normalised weight rows
  3 (512 t + q) + j, and the label block the whole label column, so element (b, q) of the body's values is the
  specification at (b, 512 t + q).  The blocks cover the arrays, so the arrays end at the specification.
-/
import proofs.«138764_j50139448213649_2_alg».proof.Proof.FrameKernelIdeal
import proofs.«138764_j50139448213649_2_alg».proof.Proof.KernelHostRun
import proofs.«138764_j50139448213649_2_alg».proof.Proof.KernelBody
import Idealize.ShloMosaic.Lib.Pipeline.Value

noncomputable section

namespace Cert.KernelIdeal.KValue

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The cosines and the margin logits of the launch contents of the three arguments. -/
def G0k (c : Dev nD) : Buf (Elt Ideal) ((c.tc : Thread nD τ).loc main_v29_0) :=
  Spec.G0 (m ((c : Thread nD τ).loc main_arg0)) (m ((c : Thread nD τ).loc main_arg2))
def G1k (c : Dev nD) : Buf (Elt Ideal) ((c.tc : Thread nD τ).loc main_v29_1) :=
  Spec.G1 (m ((c : Thread nD τ).loc main_arg0)) (m ((c : Thread nD τ).loc main_arg1)) (m ((c : Thread nD τ).loc main_arg2))

theorem hz : (![0, 0] : Fin 2 → Nat) = fun _ => 0 := funext fun a => by fin_cases a <;> rfl

/-! ## The index maps over the grid, decided once -/

theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val
    ∧ win0_6.index t (0 : Fin 2) = 0 ∧ win0_6.index t (1 : Fin 2) = t.val
    ∧ ((grid0.coords t) 0).val = t.val :=
  (by decide +kernel : ∀ t : Fin grid0.N, _)

/-- The part of a result block inside the array: all 1024 rows, and the columns up to the array's 50000th. -/
theorem xsize_facts : ∀ t : Fin cfg0.N,
    win0_5.xsize (grid0.coords t) (0 : Fin 2) = 1024 ∧ win0_5.xsize (grid0.coords t) (1 : Fin 2) = min 512 (50000 - t.val * 512)
    ∧ win0_6.xsize (grid0.coords t) (0 : Fin 2) = 1024 ∧ win0_6.xsize (grid0.coords t) (1 : Fin 2) = min 512 (50000 - t.val * 512) :=
  (by decide +kernel : ∀ t : Fin grid0.N, _)

theorem flush_facts : ∀ t : Fin cfg0.N, (cfg0.win 5).flush t = true ∧ (cfg0.win 6).flush t = true :=
  (by decide +kernel : ∀ t : Fin grid0.N, _)

/-! ## The input blocks, read where the result's block says -/

/-- The batch block at any point is the whole normalised batch. -/
theorem iblk0_at (c : Dev nD) (t : Fin cfg0.N) (b : Fin 1024) (k : Fin 512) :
    GenP.iblk m c 0 t (ix2 b k) = Spec.nrmK (Spec.rowX (m ((c : Thread nD τ).loc main_arg0)) b) k := by
  obtain ⟨h0, h1, -⟩ := idx_facts t
  have e : GenP.iblk m c 0 t (ix2 b k) = (GenP.V m c main_v8 : S1024x512.Idx → EReal) (ix2 b k) := by
    show (GenP.V m c main_v8 : S1024x512.Idx → EReal) (((cfg0.win 0).blk t).view.emb (ix2 b k)) = _
    refine congrArg _ (funext fun a => Fin.ext ?_)
    match a with
    | ⟨0, _⟩ => show win0_0.index t (0 : Fin 2) * 1024 + 1 * b.val = b.val; rw [h0]; omega
    | ⟨1, _⟩ => show win0_0.index t (1 : Fin 2) * 512 + 1 * k.val = k.val; rw [h1]; omega
  rw [e, HostOps.V_xn, HostOps.xnArr_at]

/-- Row q of weight block t of sub-centre 0 is the normalised weight row of class 512 t + q, sub-centre 0. -/
theorem iblk1_at (c : Dev nD) (t : Fin cfg0.N) (q k : Fin 512) (col : Fin 50000) (hcol : col.val = t.val * 512 + q.val) :
    GenP.iblk m c 1 t (ix2 q k) = Spec.nrmK (Spec.rowW (m ((c : Thread nD τ).loc main_arg2)) (Spec.sub col 0)) k := by
  obtain ⟨-, -, h0, h1, -⟩ := idx_facts t
  have e : GenP.iblk m c 1 t (ix2 q k)
      = (GenP.V m c main_v25 : S50176x512.Idx → EReal) (ix2 (⟨col.val, by have := col.isLt; omega⟩ : Fin 50176) k) := by
    show (GenP.V m c main_v25 : S50176x512.Idx → EReal) (((cfg0.win 1).blk t).view.emb (ix2 q k)) = _
    refine congrArg _ (funext fun a => Fin.ext ?_)
    match a with
    | ⟨0, _⟩ => show win0_1.index t (0 : Fin 2) * 512 + 1 * q.val = col.val; rw [h0]; omega
    | ⟨1, _⟩ => show win0_1.index t (1 : Fin 2) * 512 + 1 * k.val = k.val; rw [h1]; omega
  rw [e, HostOps.V_slab0, HostOps.slab0_at]

theorem iblk2_at (c : Dev nD) (t : Fin cfg0.N) (q k : Fin 512) (col : Fin 50000) (hcol : col.val = t.val * 512 + q.val) :
    GenP.iblk m c 2 t (ix2 q k) = Spec.nrmK (Spec.rowW (m ((c : Thread nD τ).loc main_arg2)) (Spec.sub col 1)) k := by
  obtain ⟨-, -, -, -, h0, h1, -⟩ := idx_facts t
  have e : GenP.iblk m c 2 t (ix2 q k)
      = (GenP.V m c main_v26 : S50176x512.Idx → EReal) (ix2 (⟨col.val, by have := col.isLt; omega⟩ : Fin 50176) k) := by
    show (GenP.V m c main_v26 : S50176x512.Idx → EReal) (((cfg0.win 2).blk t).view.emb (ix2 q k)) = _
    refine congrArg _ (funext fun a => Fin.ext ?_)
    match a with
    | ⟨0, _⟩ => show win0_2.index t (0 : Fin 2) * 512 + 1 * q.val = col.val; rw [h0]; omega
    | ⟨1, _⟩ => show win0_2.index t (1 : Fin 2) * 512 + 1 * k.val = k.val; rw [h1]; omega
  rw [e, HostOps.V_slab1, HostOps.slab1_at]

theorem iblk3_at (c : Dev nD) (t : Fin cfg0.N) (q k : Fin 512) (col : Fin 50000) (hcol : col.val = t.val * 512 + q.val) :
    GenP.iblk m c 3 t (ix2 q k) = Spec.nrmK (Spec.rowW (m ((c : Thread nD τ).loc main_arg2)) (Spec.sub col 2)) k := by
  obtain ⟨-, -, -, -, -, -, h0, h1, -⟩ := idx_facts t
  have e : GenP.iblk m c 3 t (ix2 q k)
      = (GenP.V m c main_v27 : S50176x512.Idx → EReal) (ix2 (⟨col.val, by have := col.isLt; omega⟩ : Fin 50176) k) := by
    show (GenP.V m c main_v27 : S50176x512.Idx → EReal) (((cfg0.win 3).blk t).view.emb (ix2 q k)) = _
    refine congrArg _ (funext fun a => Fin.ext ?_)
    match a with
    | ⟨0, _⟩ => show win0_3.index t (0 : Fin 2) * 512 + 1 * q.val = col.val; rw [h0]; omega
    | ⟨1, _⟩ => show win0_3.index t (1 : Fin 2) * 512 + 1 * k.val = k.val; rw [h1]; omega
  rw [e, HostOps.V_slab2, HostOps.slab2_at]

/-- The label block at any point is the whole label column. -/
theorem iblk4_at (c : Dev nD) (t : Fin cfg0.N) (b : Fin 1024) :
    GenP.iblk m c 4 t (ix2 b HostOps.z1) = m ((c : Thread nD τ).loc main_arg1) (ix1 b) := by
  obtain ⟨-, -, -, -, -, -, -, -, h0, h1, -⟩ := idx_facts t
  have e : GenP.iblk m c 4 t (ix2 b HostOps.z1) = (GenP.V m c main_v28 : S1024x1.Idx → BitVec 32) (ix2 b HostOps.z1) := by
    show (GenP.V m c main_v28 : S1024x1.Idx → BitVec 32) (((cfg0.win 4).blk t).view.emb (ix2 b HostOps.z1)) = _
    refine congrArg _ (funext fun a => Fin.ext ?_)
    match a with
    | ⟨0, _⟩ => show win0_4.index t (0 : Fin 2) * 1024 + 1 * b.val = b.val; rw [h0]; omega
    | ⟨1, _⟩ => show win0_4.index t (1 : Fin 2) * 1 + 1 * 0 = 0; rw [h1]
  rw [e, HostOps.V_lbl, HostOps.lblCol_at]

/-! ## The body's values at a block element are the specification at the array element -/

/-- Over any blocks that read as the normalised rows: the stored cosine at (b, q) is the cosine of row b against
    class col. -/
theorem cos_block (x0 : FVec Ideal S1024x512 .bf16) (x1 x2 x3 : FVec Ideal S512x512 .bf16)
    (x : Spec.SX.Idx → EReal) (w : Spec.SW.Idx → EReal) (b : Fin 1024) (q : Fin 512) (col : Fin 50000)
    (h0 : ∀ k, x0 (ix2 b k) = Spec.nrmK (Spec.rowX x b) k)
    (h1 : ∀ k, x1 (ix2 q k) = Spec.nrmK (Spec.rowW w (Spec.sub col 0)) k)
    (h2 : ∀ k, x2 (ix2 q k) = Spec.nrmK (Spec.rowW w (Spec.sub col 1)) k)
    (h3 : ∀ k, x3 (ix2 q k) = Spec.nrmK (Spec.rowW w (Spec.sub col 2)) k) :
    k0_pay2 (F := Ideal) x0 x1 x2 x3 (ix2 b q) = Spec.cosine x w b col := by
  rw [Body.cos_at]
  unfold Body.dot Spec.cosine Spec.dotN
  simp only [h0, h1, h2, h3]

/-- The stored margin logit at (b, q) of the block at grid position tv is the margin logit of row b against class
    col = 512 tv + q. -/
theorem margin_block (x0 : FVec Ideal S1024x512 .bf16) (x1 x2 x3 : FVec Ideal S512x512 .bf16) (x4 : Vec Ideal S1024x1 .i32)
    (tc : grid0.Coords) (tv : Nat) (htv : (tc 0).val = tv) (htv' : tv < 98)
    (x : Spec.SX.Idx → EReal) (l : Spec.SL.Idx → BitVec 32) (w : Spec.SW.Idx → EReal) (b : Fin 1024) (q : Fin 512) (col : Fin 50000)
    (hcol : col.val = tv * 512 + q.val)
    (hc : k0_pay2 (F := Ideal) x0 x1 x2 x3 (ix2 b q) = Spec.cosine x w b col)
    (h4 : x4 (ix2 b HostOps.z1) = l (ix1 b)) :
    k0_pay1 (F := Ideal) (k0_pay2 x0 x1 x2 x3) (k0_pay3 x0 x1 x2 x3) (k0_pay4 tc) (k0_pay5 x4) (ix2 b q)
      = Spec.marginSel Spec.cm Spec.sm Spec.th Spec.mm Spec.one32 Spec.zero32 Spec.scale (Spec.cosine x w b col) (Spec.hit l b col) := by
  rw [Body.margin_at, Body.phi_at, hc, Body.col_at, Body.lbl_at, h4, htv]
  have hw : BitVec.ofNat 32 q.val + BitVec.ofNat 32 tv * 512#32 = BitVec.ofNat 32 col.val := by
    have hq := q.isLt
    apply BitVec.eq_of_toNat_eq
    rw [BitVec.toNat_add, BitVec.toNat_mul, BitVec.toNat_ofNat, BitVec.toNat_ofNat, BitVec.toNat_ofNat, hcol]
    show (q.val % 2 ^ 32 + tv % 2 ^ 32 * 512 % 2 ^ 32) % 2 ^ 32 = (tv * 512 + q.val) % 2 ^ 32
    omega
  rw [hw]
  rfl

/-! ## What a point writes back -/

/-- Point t writes back, through result window 5, its block of the cosines. -/
theorem flushed5_eq (c : Dev nD) (t : Fin cfg0.N) :
    (GenP.dats m 0 c).flushed 5 t = ((cfg0.win 5).blk t).view.read (Elt Ideal) (G0k m c) := by
  show (cfg0.win 5).cut (grid0.coords t) ((GenP.dats m 0 c).after 5 t) = _
  rw [GenP.after0_5]
  unfold GenP.out0_5
  rw [View.canon_unit_zero hz]
  simp only [View.ld_unit_zero (S := S1024x512) hz, View.ld_unit_zero (S := S512x512) hz]
  obtain ⟨-, -, -, -, -, -, -, -, -, -, e0, e1, -⟩ := idx_facts t
  obtain ⟨s0, s1, -⟩ := xsize_facts t
  have ht : t.val < 98 := by have := t.isLt; have hN : cfg0.N = 98 := N_0; omega
  funext y
  have hy0 : (y 0).val < 1024 := lt_of_lt_of_eq (b := win0_5.xsize (grid0.coords t) (0 : Fin 2)) (y 0).isLt s0
  have hy1 : (y 1).val < min 512 (50000 - t.val * 512) := lt_of_lt_of_eq (b := win0_5.xsize (grid0.coords t) (1 : Fin 2)) (y 1).isLt s1
  obtain ⟨b, hb⟩ : ∃ b : Fin 1024, b.val = (y 0).val := ⟨⟨(y 0).val, hy0⟩, rfl⟩
  obtain ⟨q, hq⟩ : ∃ q : Fin 512, q.val = (y 1).val := ⟨⟨(y 1).val, by omega⟩, rfl⟩
  obtain ⟨col, hcol⟩ : ∃ col : Fin 50000, col.val = t.val * 512 + q.val := ⟨⟨t.val * 512 + (y 1).val, by omega⟩, by rw [hq]⟩
  have hx : (cfg0.win 5).xinj (grid0.coords t) y = ix2 b q := funext fun a => Fin.ext (by
    match a with
    | ⟨0, _⟩ => exact hb.symm
    | ⟨1, _⟩ => exact hq.symm)
  have hemb : ((cfg0.win 5).blk t).view.emb y = ix2 b col := funext fun a => Fin.ext (by
    match a with
    | ⟨0, _⟩ => show win0_5.index t (0 : Fin 2) * 1024 + 1 * (y 0).val = b.val; rw [e0, hb]; omega
    | ⟨1, _⟩ => show win0_5.index t (1 : Fin 2) * 512 + 1 * (y 1).val = col.val; rw [e1, hcol, hq]; omega)
  show k0_pay2 (F := Ideal) (GenP.iblk m c 0 t) (GenP.iblk m c 1 t) (GenP.iblk m c 2 t) (GenP.iblk m c 3 t)
      ((cfg0.win 5).xinj (grid0.coords t) y) = G0k m c (((cfg0.win 5).blk t).view.emb y)
  rw [hx, hemb]
  exact cos_block (GenP.iblk m c 0 t) (GenP.iblk m c 1 t) (GenP.iblk m c 2 t) (GenP.iblk m c 3 t)
    (m ((c : Thread nD τ).loc main_arg0)) (m ((c : Thread nD τ).loc main_arg2)) b q col
    (fun k => iblk0_at m c t b k) (fun k => iblk1_at m c t q k col hcol) (fun k => iblk2_at m c t q k col hcol)
    (fun k => iblk3_at m c t q k col hcol)

/-- Point t writes back, through result window 6, its block of the margin logits. -/
theorem flushed6_eq (c : Dev nD) (t : Fin cfg0.N) :
    (GenP.dats m 0 c).flushed 6 t = ((cfg0.win 6).blk t).view.read (Elt Ideal) (G1k m c) := by
  show (cfg0.win 6).cut (grid0.coords t) ((GenP.dats m 0 c).after 6 t) = _
  rw [GenP.after0_6]
  unfold GenP.out0_6
  rw [View.canon_unit_zero hz]
  simp only [View.ld_unit_zero (S := S1024x512) hz, View.ld_unit_zero (S := S512x512) hz, View.ld_unit_zero (S := S1024x1) hz]
  obtain ⟨-, -, -, -, -, -, -, -, -, -, -, -, e0, e1, eg⟩ := idx_facts t
  obtain ⟨-, -, s0, s1⟩ := xsize_facts t
  have ht : t.val < 98 := by have := t.isLt; have hN : cfg0.N = 98 := N_0; omega
  funext y
  have hy0 : (y 0).val < 1024 := lt_of_lt_of_eq (b := win0_6.xsize (grid0.coords t) (0 : Fin 2)) (y 0).isLt s0
  have hy1 : (y 1).val < min 512 (50000 - t.val * 512) := lt_of_lt_of_eq (b := win0_6.xsize (grid0.coords t) (1 : Fin 2)) (y 1).isLt s1
  obtain ⟨b, hb⟩ : ∃ b : Fin 1024, b.val = (y 0).val := ⟨⟨(y 0).val, hy0⟩, rfl⟩
  obtain ⟨q, hq⟩ : ∃ q : Fin 512, q.val = (y 1).val := ⟨⟨(y 1).val, by omega⟩, rfl⟩
  obtain ⟨col, hcol⟩ : ∃ col : Fin 50000, col.val = t.val * 512 + q.val := ⟨⟨t.val * 512 + (y 1).val, by omega⟩, by rw [hq]⟩
  have hx : (cfg0.win 6).xinj (grid0.coords t) y = ix2 b q := funext fun a => Fin.ext (by
    match a with
    | ⟨0, _⟩ => exact hb.symm
    | ⟨1, _⟩ => exact hq.symm)
  have hemb : ((cfg0.win 6).blk t).view.emb y = ix2 b col := funext fun a => Fin.ext (by
    match a with
    | ⟨0, _⟩ => show win0_6.index t (0 : Fin 2) * 1024 + 1 * (y 0).val = b.val; rw [e0, hb]; omega
    | ⟨1, _⟩ => show win0_6.index t (1 : Fin 2) * 512 + 1 * (y 1).val = col.val; rw [e1, hcol, hq]; omega)
  show k0_pay1 (F := Ideal) (k0_pay2 (GenP.iblk m c 0 t) (GenP.iblk m c 1 t) (GenP.iblk m c 2 t) (GenP.iblk m c 3 t))
      (k0_pay3 (GenP.iblk m c 0 t) (GenP.iblk m c 1 t) (GenP.iblk m c 2 t) (GenP.iblk m c 3 t)) (k0_pay4 (grid0.coords t))
      (k0_pay5 (GenP.iblk m c 4 t)) ((cfg0.win 6).xinj (grid0.coords t) y) = G1k m c (((cfg0.win 6).blk t).view.emb y)
  rw [hx, hemb]
  exact margin_block (GenP.iblk m c 0 t) (GenP.iblk m c 1 t) (GenP.iblk m c 2 t) (GenP.iblk m c 3 t) (GenP.iblk m c 4 t)
    (grid0.coords t) t.val eg ht
    (m ((c : Thread nD τ).loc main_arg0)) (m ((c : Thread nD τ).loc main_arg1)) (m ((c : Thread nD τ).loc main_arg2)) b q col hcol
    (cos_block (GenP.iblk m c 0 t) (GenP.iblk m c 1 t) (GenP.iblk m c 2 t) (GenP.iblk m c 3 t)
      (m ((c : Thread nD τ).loc main_arg0)) (m ((c : Thread nD τ).loc main_arg2)) b q col
      (fun k => iblk0_at m c t b k) (fun k => iblk1_at m c t q k col hcol) (fun k => iblk2_at m c t q k col hcol)
      (fun k => iblk3_at m c t q k col hcol))
    (iblk4_at m c t b)

/-! ## The blocks cover the arrays -/

theorem mem_blk5 (t : Fin cfg0.N) (i : S1024x50000.Idx) :
    i ∈ ((cfg0.win 5).blk t).view.set ↔ ∀ a : Fin 2, win0_5.index t a * S1024x512.size a ≤ (i a).val
      ∧ (i a).val < win0_5.index t a * S1024x512.size a + win0_5.xsize (grid0.coords t) a := by
  show i ∈ ((View.whole main_v29_0).slice (win0_5.rect t)).set ↔ _
  rw [View.set_slice_whole, Rect.mem_set_unit]
  exact Iff.rfl

theorem mem_blk6 (t : Fin cfg0.N) (i : S1024x50000.Idx) :
    i ∈ ((cfg0.win 6).blk t).view.set ↔ ∀ a : Fin 2, win0_6.index t a * S1024x512.size a ≤ (i a).val
      ∧ (i a).val < win0_6.index t a * S1024x512.size a + win0_6.xsize (grid0.coords t) a := by
  show i ∈ ((View.whole main_v29_1).slice (win0_6.rect t)).set ↔ _
  rw [View.set_slice_whole, Rect.mem_set_unit]
  exact Iff.rfl

/-- Column n of the results lies in the block of point n / 512, on that block's part inside the array. -/
theorem cover5 (i : S1024x50000.Idx) : ∃ t : Fin cfg0.N, (cfg0.win 5).flush t = true ∧ i ∈ ((cfg0.win 5).blk t).view.set := by
  have hi0 : (i 0).val < 1024 := (i 0).isLt
  have hi1 : (i 1).val < 50000 := (i 1).isLt
  obtain ⟨t, ht⟩ : ∃ t : Fin cfg0.N, t.val = (i 1).val / 512 := ⟨⟨(i 1).val / 512, by have hN : cfg0.N = 98 := N_0; omega⟩, rfl⟩
  obtain ⟨-, -, -, -, -, -, -, -, -, -, e0, e1, -⟩ := idx_facts t
  obtain ⟨s0, s1, -⟩ := xsize_facts t
  refine ⟨t, (flush_facts t).1, ?_⟩
  rw [mem_blk5]
  intro a
  match a with
  | ⟨0, _⟩ =>
    show win0_5.index t (0 : Fin 2) * 1024 ≤ (i 0).val ∧ (i 0).val < win0_5.index t (0 : Fin 2) * 1024 + win0_5.xsize (grid0.coords t) (0 : Fin 2)
    rw [e0, s0]; omega
  | ⟨1, _⟩ =>
    show win0_5.index t (1 : Fin 2) * 512 ≤ (i 1).val ∧ (i 1).val < win0_5.index t (1 : Fin 2) * 512 + win0_5.xsize (grid0.coords t) (1 : Fin 2)
    rw [e1, s1]; omega

theorem cover6 (i : S1024x50000.Idx) : ∃ t : Fin cfg0.N, (cfg0.win 6).flush t = true ∧ i ∈ ((cfg0.win 6).blk t).view.set := by
  have hi0 : (i 0).val < 1024 := (i 0).isLt
  have hi1 : (i 1).val < 50000 := (i 1).isLt
  obtain ⟨t, ht⟩ : ∃ t : Fin cfg0.N, t.val = (i 1).val / 512 := ⟨⟨(i 1).val / 512, by have hN : cfg0.N = 98 := N_0; omega⟩, rfl⟩
  obtain ⟨-, -, -, -, -, -, -, -, -, -, -, -, e0, e1, -⟩ := idx_facts t
  obtain ⟨-, -, s0, s1⟩ := xsize_facts t
  refine ⟨t, (flush_facts t).2, ?_⟩
  rw [mem_blk6]
  intro a
  match a with
  | ⟨0, _⟩ =>
    show win0_6.index t (0 : Fin 2) * 1024 ≤ (i 0).val ∧ (i 0).val < win0_6.index t (0 : Fin 2) * 1024 + win0_6.xsize (grid0.coords t) (0 : Fin 2)
    rw [e0, s0]; omega
  | ⟨1, _⟩ =>
    show win0_6.index t (1 : Fin 2) * 512 ≤ (i 1).val ∧ (i 1).val < win0_6.index t (1 : Fin 2) * 512 + win0_6.xsize (grid0.coords t) (1 : Fin 2)
    rw [e1, s1]; omega

/-! ## The arrays after the run, and the run -/

theorem final5 (c : Dev nD) : (GenP.dats m 0 c).arrAt 5 cfg0.N = G0k m c :=
  (GenP.dats m 0 c).arrAt_eq_of_cover 5 (G0k m c) (fun t _ => flushed5_eq m c t) cover5

theorem final6 (c : Dev nD) : (GenP.dats m 0 c).arrAt 6 cfg0.N = G1k m c :=
  (GenP.dats m 0 c).arrAt_eq_of_cover 6 (G1k m c) (fun t _ => flushed6_eq m c t) cover6

/-- Every weakly fair execution of the kernel's program terminates with the two results at the cosines and the
    margin logits of the arguments, the arguments unchanged. -/
theorem run : θ_run defs (onTc (τ := τ) (main (F := Ideal))) ⟨m, fun _ => 0, ρ⟩ fun r => ∀ c : Dev nD,
      r.2.mem ((c : Thread nD τ).loc main_v29_0) = G0k m c
      ∧ r.2.mem ((c : Thread nD τ).loc main_v29_1) = G1k m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 5).trans (final5 m c), ((h c).1 6).trans (final6 m c),
      ((h c).2 main_arg0 (Pipeline.mem_restRefs_of main_arg0 (by decide) (by decide))).trans (GenP.V_main_arg0 m c),
      ((h c).2 main_arg1 (Pipeline.mem_restRefs_of main_arg1 (by decide) (by decide))).trans (GenP.V_main_arg1 m c),
      ((h c).2 main_arg2 (Pipeline.mem_restRefs_of main_arg2 (by decide) (by decide))).trans (GenP.V_main_arg2 m c)⟩)
    (GenP.run_main m ρ)

end Cert.KernelIdeal.KValue

end
-- ==== Proof.RefValue.lean ====
/-
  The reference, stage by stage at an index, is the specification.

  Its normalised rows divide by the root where the specification multiplies by the reciprocal root (equal, the
  quantity under the root being above zero); its [1024, 150000] table of inner products, viewed [1024, 50000, 3],
  puts the product with weight row 3c + j at (b, c, j); the maximum folded from -inf over j is the nested maximum; and
  its margin logits blend arithmetically over the label's one-hot row where the specification selects.
-/
import proofs.«138764_j50139448213649_2_alg».proof.Proof.Gen.ReferenceIdeal.Read
import proofs.«138764_j50139448213649_2_alg».proof.Proof.Spec
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx
open scoped BigOperators

/-! ## The normalised rows -/

theorem v4_at (x : FVec Ideal S1024x512 .f32) (b : Fin 1024) :
    val_main_v4 (F := Ideal) x (ix2 b 0) = Spec.ssq (Spec.rowX x b) := by
  rw [val_main_v4_apply, val_main_v2_apply, val_main_v1_apply, val_main_v3_apply]
  unfold Spec.ssq Spec.rowX
  show (_ + _) + _ = _
  refine congrArg₂ (· + ·) (congrArg₂ (· + ·) rfl (Finset.sum_congr rfl fun k _ => ?_)) rfl
  rw [val_main_v0_apply]
  exact congrArg (fun i => x i * x i) (funext fun a => Fin.ext (by match a with | ⟨0, _⟩ => rfl | ⟨1, _⟩ => rfl))

theorem v7_at (x : FVec Ideal S1024x512 .f32) (b : Fin 1024) (k : Fin 512) :
    val_main_v7 (F := Ideal) x (ix2 b k) = Spec.nrmR (Spec.rowX x b) k := by
  rw [val_main_v7_apply, val_main_v6_apply, val_main_v5_apply]
  have e : idx_main_v6 (ix2 b k) = ix2 b (0 : Fin 1) :=
    funext fun a => Fin.ext (by match a with | ⟨0, _⟩ => rfl | ⟨1, _⟩ => rfl)
  rw [e, v4_at]
  rfl

theorem v12_at (w : FVec Ideal S150000x512 .f32) (r : Fin 150000) :
    val_main_v12 (F := Ideal) w (ix2 r 0) = Spec.ssq (Spec.rowW w r) := by
  rw [val_main_v12_apply, val_main_v10_apply, val_main_v9_apply, val_main_v11_apply]
  unfold Spec.ssq Spec.rowW
  show (_ + _) + _ = _
  refine congrArg₂ (· + ·) (congrArg₂ (· + ·) rfl (Finset.sum_congr rfl fun k _ => ?_)) rfl
  rw [val_main_v8_apply]
  exact congrArg (fun i => w i * w i) (funext fun a => Fin.ext (by match a with | ⟨0, _⟩ => rfl | ⟨1, _⟩ => rfl))

theorem v15_at (w : FVec Ideal S150000x512 .f32) (r : Fin 150000) (k : Fin 512) :
    val_main_v15 (F := Ideal) w (ix2 r k) = Spec.nrmR (Spec.rowW w r) k := by
  rw [val_main_v15_apply, val_main_v14_apply, val_main_v13_apply]
  have e : idx_main_v14 (ix2 r k) = ix2 r (0 : Fin 1) :=
    funext fun a => Fin.ext (by match a with | ⟨0, _⟩ => rfl | ⟨1, _⟩ => rfl)
  rw [e, v12_at]
  rfl

/-! ## The inner products and their maximum -/

theorem v16_at (x : FVec Ideal S1024x512 .f32) (w : FVec Ideal S150000x512 .f32) (b : Fin 1024) (r : Fin 150000) :
    val_main_v16 (F := Ideal) x w (ix2 b r) = Spec.dotN x w b r := by
  rw [val_main_v16_apply]
  unfold Spec.dotN
  refine Finset.sum_congr rfl fun k _ => ?_
  have el : lidx_main_v16 (ix2 b r) k = ix2 b k :=
    funext fun a => Fin.ext (by match a with | ⟨0, _⟩ => rfl | ⟨1, _⟩ => rfl)
  have er : ridx_main_v16 (ix2 b r) k = ix2 r k :=
    funext fun a => Fin.ext (by match a with | ⟨0, _⟩ => rfl | ⟨1, _⟩ => rfl)
  rw [el, er, v7_at, v15_at, Spec.nrmR_eq_nrmK, Spec.nrmR_eq_nrmK]

theorem v17_at (x : FVec Ideal S1024x512 .f32) (w : FVec Ideal S150000x512 .f32) (b : Fin 1024) (c : Fin 50000) (j : Fin 3) :
    val_main_v17 (F := Ideal) x w (ix3 b c j) = Spec.dotN x w b (Spec.sub c j) := by
  rw [val_main_v17_apply]
  have e : idx_main_v17 (ix3 b c j) = ix2 b (Spec.sub c j) := funext fun a => Fin.ext (by
    have hb := b.isLt; have hc := c.isLt; have hj := j.isLt
    match a with
    | ⟨0, _⟩ => show ((b.val * 50000 + c.val) * 3 + j.val) / 150000 = b.val; omega
    | ⟨1, _⟩ => show ((b.val * 50000 + c.val) * 3 + j.val) % 150000 = 3 * c.val + j.val; omega)
  rw [e, v16_at]

theorem v18_at (x : FVec Ideal S1024x512 .f32) (w : FVec Ideal S150000x512 .f32) (b : Fin 1024) (c : Fin 50000) :
    val_main_v18 (F := Ideal) x w (ix2 b c) = Spec.cosine x w b c := by
  unfold val_main_v18
  rw [Host.reduce_eq_fold_single FloatOps.maximumf _ _ reducesTo_S1024x50000x3_S1024x50000_d2 (by decide) h_S_]
  show (Finset.univ : Finset (Fin 3)).fold max (Ideal.ofBits .f32 0xFF800000#32) (fun j : Fin 3 => val_main_v17 (F := Ideal) x w
    (Shape.Reduces.lift (by decide : S1024x50000x3.Reduces [2] S1024x50000) (ix2 b c) j)) = _
  rw [Spec.ninf_eq]
  refine (Spec.fold_max3 _).trans ?_
  have e : ∀ j : Fin 3, Shape.Reduces.lift (by decide : S1024x50000x3.Reduces [2] S1024x50000) (ix2 b c) j = ix3 b c j :=
    fun j => funext fun a => Fin.ext (by match a with | ⟨0, _⟩ => rfl | ⟨1, _⟩ => rfl | ⟨2, _⟩ => rfl)
  have h : ∀ j : Fin 3, val_main_v17 (F := Ideal) x w
      (Shape.Reduces.lift (by decide : S1024x50000x3.Reduces [2] S1024x50000) (ix2 b c) j) = Spec.dotN x w b (Spec.sub c j) :=
    fun j => (congrArg (val_main_v17 (F := Ideal) x w) (e j)).trans (v17_at x w b c j)
  unfold Spec.cosine
  exact congrArg₂ max (congrArg₂ max (h 0) (h 1)) (h 2)

/-- The reference's first result is the cosines. -/
theorem cos_eq (x : FVec Ideal S1024x512 .f32) (w : FVec Ideal S150000x512 .f32) :
    val_main_v18 (F := Ideal) x w = Spec.G0 x w := by
  funext i
  obtain ⟨b, c, rfl⟩ : ∃ (b : Fin 1024) (c : Fin 50000), i = ix2 b c := ⟨i 0, i 1, eq_ix2 i⟩
  exact v18_at x w b c

/-! ## The margin logits -/

/-- The pointwise stages after the maximum, composed: the blend of the margin value and the cosine over the
    one-hot entry, scaled. -/
theorem v41_at (x : FVec Ideal S1024x512 .f32) (l : IVec S1024 32) (w : FVec Ideal S150000x512 .f32) (i : S1024x50000.Idx) :
    val_main_v41 (F := Ideal) x l w i
      = Spec.marginBlend Spec.cm Spec.sm Spec.th Spec.mm Spec.one32 Spec.zero32 Spec.scale (val_main_v18 (F := Ideal) x w i)
          (FloatOps.uitofp (F := Ideal) .f32 (val_main_call2_v4 (F := Ideal) l i)) := by
  rw [val_main_v41_apply, val_main_v40_apply, val_main_cst_12_apply, val_main_v39_apply, val_main_v35_apply]
  rw [val_main_v38_apply, val_main_v37_apply, val_main_v36_apply, val_main_cst_11_apply, val_main_v34_apply]
  rw [val_main_v33_apply, val_main_v30_apply, val_main_v29_apply, val_main_cst_9_apply, val_main_v28_apply]
  rw [val_main_v25_apply, val_main_v24_apply, val_main_cst_7_apply, val_main_v27_apply, val_main_v26_apply]
  rw [val_main_cst_8_apply, val_main_v23_apply, val_main_v22_apply, val_main_call0_v4_apply, val_main_call0_v3_apply]
  rw [val_main_cst_6_apply, val_main_call0_v2_apply, val_main_call0_v1_apply, val_main_call0_v0_apply, val_main_cst_5_apply]
  rw [val_main_v21_apply, val_main_v20_apply, val_main_cst_4_apply, val_main_v19_apply, val_main_v32_apply]
  rw [val_main_v31_apply, val_main_cst_10_apply]
  generalize val_main_v18 (F := Ideal) x w i = cv
  generalize val_main_call2_v4 (F := Ideal) l i = hb
  rfl

/-- The one-hot comparison at (b, c): the label of row b against the class index c. -/
theorem hit_at (l : IVec S1024 32) (b : Fin 1024) (c : Fin 50000) :
    val_main_call2_v4 (F := Ideal) l (ix2 b c) = Spec.hit l b c := by
  rw [val_main_call2_v4_apply, val_main_call2_v2_apply, val_main_call2_v0_apply, val_main_call2_v3_apply, val_main_call2_v1_apply]
  have e : idx_main_call2_v0 (idx_main_call2_v2 (ix2 b c)) = ix1 b :=
    funext fun a => Fin.ext (by match a with | ⟨0, _⟩ => rfl)
  rw [e]
  rfl

/-- The reference's second result is the margin logits. -/
theorem margin_eq (x : FVec Ideal S1024x512 .f32) (l : IVec S1024 32) (w : FVec Ideal S150000x512 .f32) :
    val_main_v41 (F := Ideal) x l w = Spec.G1 x l w := by
  funext i
  obtain ⟨b, c, rfl⟩ : ∃ (b : Fin 1024) (c : Fin 50000), i = ix2 b c := ⟨i 0, i 1, eq_ix2 i⟩
  rw [v41_at, v18_at, hit_at]
  unfold Spec.G1
  refine Spec.marginBlend_eq_marginSel _ _ _ _ _ _ _ Spec.one32_eq _ (Spec.hit l b c) _ (fun h => ?_) (fun h => ?_)
  · rw [h]; show (((1#1 : BitVec 1).toNat : ℝ) : EReal) = 1; simp
  · rw [h]; show (((0#1 : BitVec 1).toNat : ℝ) : EReal) = 0; simp

end Cert.ReferenceIdeal.RefValue

end
-- ==== Proof.lean ====
/-
  The additive-angular-margin head with three sub-centres per class: a tiled kernel against its plain reference.

  For a batch x [1024, 512], labels [1024] and a weight table w [150000, 512] (class c's sub-centres are rows 3c, 3c+1,
  3c+2) both programs return the cosines cos(b, c) = max over j of < x_b / |x_b| , w_(3c+j) / |w_(3c+j)| > (norms
  stabilised by eps under the root) and the scaled margin logits: cos(theta + m) by the addition formula in place of the
  cosine at each row's labelled class.  Over the extended reals the two agree exactly:
    * the kernel's program normalises by multiplying with a reciprocal root, the reference by dividing by the root:
      equal because a sum of squares plus a positive eps is above zero (Spec);
    * the kernel takes 512 classes per grid point, as three [1024, 512] x [512, 512] products against the three
      sub-centre slabs of the weight view [50000, 3, 512], padded to 98 whole blocks; the last block's 176 columns past
      the array's end are never written back, and the blocks' parts inside cover the results (KernelValue);
    * the reference forms all 150000 products at once, views them [1024, 50000, 3] and folds the maximum from -inf
      (RefValue);
    * the kernel selects the margin value where the label equals the column's class index, the reference blends with
      the label's one-hot row: equal because 0 * y = 0 for every extended real y (Spec).
  No step needs the inputs to be finite: the claims hold from any memory, and the precondition is not opened.
  The idealization rewrote nothing, so the kernel's sanctioned idealization is its own text read over the extended reals.
-/
import proofs.«138764_j50139448213649_2_alg».proof.Defs
import proofs.«138764_j50139448213649_2_alg».proof.Proof.Gen.Kernel
import proofs.«138764_j50139448213649_2_alg».proof.Proof.Gen.KernelIdeal
import proofs.«138764_j50139448213649_2_alg».proof.Proof.Gen.ReferenceIdeal
import proofs.«138764_j50139448213649_2_alg».proof.Proof.Gen.ReferenceIdeal.Run
import proofs.«138764_j50139448213649_2_alg».proof.Proof.Gen.ReferenceIdeal.Read
import proofs.«138764_j50139448213649_2_alg».proof.Proof.Gen.Pre_finite_inputs
import proofs.«138764_j50139448213649_2_alg».proof.Proof.FrameKernel
import proofs.«138764_j50139448213649_2_alg».proof.Proof.FrameKernelIdeal
import proofs.«138764_j50139448213649_2_alg».proof.Proof.KernelValue
import proofs.«138764_j50139448213649_2_alg».proof.Proof.RefValue
import Idealize.ShloMosaic.Adequacy
import Idealize.ShloMosaic.Init

noncomputable section

namespace Cert.Proof

open Idealize.ShloMosaic Idealize.SL.Sem

/-- The three programs run to the end from any memory and leave their arguments as they were. -/
theorem frame_k : Cert.frame_Kernel := fun m ρ _ => Cert.Kernel.GenP.frame m ρ
theorem frame_ki : Cert.frame_KernelIdeal := fun m ρ _ => Cert.KernelIdeal.GenP.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the arguments both idealized programs end with the cosines and the margin logits of
    those arguments: the kernel's run read block by block, the reference's stage by stage, meet at the specification. -/
theorem algebraic : Cert.algebraic_KernelIdeal_ReferenceIdeal := by
  intro m ρ m' ρ' _ hagree
  refine ⟨fun c => Cert.KernelIdeal.KValue.G0k m c, fun c => Cert.KernelIdeal.KValue.G1k m c,
    Cert.KernelIdeal.KValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.ReferenceIdeal.Read.val_main_v18_eq _ _).trans ((Cert.ReferenceIdeal.RefValue.cos_eq _ _).trans ?_)
    rw [(hagree c).1, (hagree c).2.2]
    rfl
  · refine (Cert.ReferenceIdeal.Read.val_main_v41_eq m' c).trans ((Cert.ReferenceIdeal.RefValue.margin_eq _ _ _).trans ?_)
    rw [(hagree c).1, (hagree c).2.1, (hagree c).2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
